-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x56x56 : Shape := ⟨4, ![32, 256, 56, 56]⟩
abbrev S8x1x1 : Shape := ⟨3, ![8, 1, 1]⟩
abbrev S_ : Shape := ⟨0, ![]⟩

class Facts : Prop where
  bcast_S_S32x256x56x56 : S_.BroadcastsInDim S32x256x56x56 (![] : Fin 0 → Fin S32x256x56x56.rank)
  reducesTo_S32x256x56x56_S_d0_1_2_3 : S32x256x56x56.ReducesTo [0, 1, 2, 3] S_
  h_S_ : 0 < S_.numel
  bcast_S_S8x1x1 : S_.BroadcastsInDim S8x1x1 (![] : Fin 0 → Fin S8x1x1.rank)
  reducesTo_S8x1x1_S_d0_1_2 : S8x1x1.ReducesTo [0, 1, 2] S_

variable [Facts]

def fn_part1 {F : FTy → Type} [FloatOps F] (main_v13 : IVec S_ 1) (main_v16 : IVec S8x1x1 1) : IVec S_ 1 :=
  let main_c_5 : IVec S_ 1 := constantI S_ 1 1#1
  let main_v17 : IVec S_ 1 := (fun x v => Host.reduce IntOp.andi x v reducesTo_S8x1x1_S_d0_1_2 h_S_) main_v16 main_c_5
  let main_v18 : IVec S_ 1 := andi main_v13 main_v17
  main_v18

def fn {F : FTy → Type} [FloatOps F] (main_arg0 : FVec F S32x256x56x56 .f32) (main_arg1 : FVec F S32x256x56x56 .f32) (main_arg2 : FVec F S32x256x56x56 .f32) (main_arg3 : FVec F S8x1x1 .f32) : IVec S_ 1 :=
  let main_v0 : FVec F S32x256x56x56 .f32 := Host.absf main_arg0
  let main_cst : FVec F S_ .f32 := constant S_ .f32 0x7F800000#32
  let main_v1 : FVec F S32x256x56x56 .f32 := broadcastInDim S32x256x56x56 ![] bcast_S_S32x256x56x56 main_cst
  let main_v2 : IVec S32x256x56x56 1 := cmpf .olt main_v0 main_v1
  let main_c : IVec S_ 1 := constantI S_ 1 1#1
  let main_v3 : IVec S_ 1 := (fun x v => Host.reduce IntOp.andi x v reducesTo_S32x256x56x56_S_d0_1_2_3 h_S_) main_v2 main_c
  let main_v4 : FVec F S32x256x56x56 .f32 := Host.absf main_arg1
  let main_cst_0 : FVec F S_ .f32 := constant S_ .f32 0x7F800000#32
  let main_v5 : FVec F S32x256x56x56 .f32 := broadcastInDim S32x256x56x56 ![] bcast_S_S32x256x56x56 main_cst_0
  let main_v6 : IVec S32x256x56x56 1 := cmpf .olt main_v4 main_v5
  let main_c_1 : IVec S_ 1 := constantI S_ 1 1#1
  let main_v7 : IVec S_ 1 := (fun x v => Host.reduce IntOp.andi x v reducesTo_S32x256x56x56_S_d0_1_2_3 h_S_) main_v6 main_c_1
  let main_v8 : IVec S_ 1 := andi main_v3 main_v7
  let main_v9 : FVec F S32x256x56x56 .f32 := Host.absf main_arg2
  let main_cst_2 : FVec F S_ .f32 := constant S_ .f32 0x7F800000#32
  let main_v10 : FVec F S32x256x56x56 .f32 := broadcastInDim S32x256x56x56 ![] bcast_S_S32x256x56x56 main_cst_2
  let main_v11 : IVec S32x256x56x56 1 := cmpf .olt main_v9 main_v10
  let main_c_3 : IVec S_ 1 := constantI S_ 1 1#1
  let main_v12 : IVec S_ 1 := (fun x v => Host.reduce IntOp.andi x v reducesTo_S32x256x56x56_S_d0_1_2_3 h_S_) main_v11 main_c_3
  let main_v13 : IVec S_ 1 := andi main_v8 main_v12
  let main_v14 : FVec F S8x1x1 .f32 := Host.absf main_arg3
  let main_cst_4 : FVec F S_ .f32 := constant S_ .f32 0x7F800000#32
  let main_v15 : FVec F S8x1x1 .f32 := broadcastInDim S8x1x1 ![] bcast_S_S8x1x1 main_cst_4
  let main_v16 : IVec S8x1x1 1 := cmpf .olt main_v14 main_v15
  fn_part1 (F := F) main_v13 main_v16
-- ==== Kernel.lean ====
abbrev S32x256x56x56 : Shape := ⟨4, ![32, 256, 56, 56]⟩
abbrev S8x1x1 : Shape := ⟨3, ![8, 1, 1]⟩
abbrev S_ : Shape := ⟨0, ![]⟩
abbrev S8x1x1x1 : Shape := ⟨4, ![8, 1, 1, 1]⟩
abbrev S8x8x1x49 : Shape := ⟨4, ![8, 8, 1, 49]⟩
abbrev S64x1x49 : Shape := ⟨3, ![64, 1, 49]⟩
abbrev S32x256x8x7x56 : Shape := ⟨5, ![32, 256, 8, 7, 56]⟩
abbrev S1x256x1x7x56 : Shape := ⟨5, ![1, 256, 1, 7, 56]⟩
abbrev S256x7x56 : Shape := ⟨3, ![256, 7, 56]⟩
abbrev S8x32x7x8x7 : Shape := ⟨5, ![8, 32, 7, 8, 7]⟩
abbrev S8x8x32x7x7 : Shape := ⟨5, ![8, 8, 32, 7, 7]⟩
abbrev S64x32x49 : Shape := ⟨3, ![64, 32, 49]⟩
abbrev S64x49 : Shape := ⟨2, ![64, 49]⟩
abbrev S64x49x49 : Shape := ⟨3, ![64, 49, 49]⟩

abbrev nBuf : Space → Nat
  | .hbm => 16
  | .vmem => 9
  | .smem => 0
  | _ => 0

abbrev bufTy : (tb : Table) → Fin (tcTables nBuf tb) → BufTy
  | .hbm, ⟨0, _⟩ => ⟨S32x256x56x56, .f32⟩
  | .hbm, ⟨1, _⟩ => ⟨S32x256x56x56, .f32⟩
  | .hbm, ⟨2, _⟩ => ⟨S32x256x56x56, .f32⟩
  | .hbm, ⟨3, _⟩ => ⟨S8x1x1, .f32⟩
  | .hbm, ⟨4, _⟩ => ⟨S_, .f32⟩
  | .hbm, ⟨5, _⟩ => ⟨S8x1x1, .f32⟩
  | .hbm, ⟨6, _⟩ => ⟨S8x1x1, .f32⟩
  | .hbm, ⟨7, _⟩ => ⟨S8x1x1, .f32⟩
  | .hbm, ⟨8, _⟩ => ⟨S8x1x1x1, .f32⟩
  | .hbm, ⟨9, _⟩ => ⟨S8x8x1x49, .f32⟩
  | .hbm, ⟨10, _⟩ => ⟨S64x1x49, .f32⟩
  | .hbm, ⟨11, _⟩ => ⟨S32x256x8x7x56, .f32⟩
  | .hbm, ⟨12, _⟩ => ⟨S32x256x8x7x56, .f32⟩
  | .hbm, ⟨13, _⟩ => ⟨S32x256x8x7x56, .f32⟩
  | .hbm, ⟨14, _⟩ => ⟨S32x256x8x7x56, .f32⟩
  | .hbm, ⟨15, _⟩ => ⟨S32x256x56x56, .f32⟩
  | .local _ .vmem, ⟨0, _⟩ => ⟨S1x256x1x7x56, .f32⟩
  | .local _ .vmem, ⟨1, _⟩ => ⟨S1x256x1x7x56, .f32⟩
  | .local _ .vmem, ⟨2, _⟩ => ⟨S1x256x1x7x56, .f32⟩
  | .local _ .vmem, ⟨3, _⟩ => ⟨S1x256x1x7x56, .f32⟩
  | .local _ .vmem, ⟨4, _⟩ => ⟨S1x256x1x7x56, .f32⟩
  | .local _ .vmem, ⟨5, _⟩ => ⟨S1x256x1x7x56, .f32⟩
  | .local _ .vmem, ⟨6, _⟩ => ⟨S64x1x49, .f32⟩
  | .local _ .vmem, ⟨7, _⟩ => ⟨S1x256x1x7x56, .f32⟩
  | .local _ .vmem, ⟨8, _⟩ => ⟨S1x256x1x7x56, .f32⟩
  | _, _ => ⟨S32x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 8], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x256x1x7x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1x7x56 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1x7x56 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S64x1x49 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1x7x56 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S8x1x1 : S_.BroadcastsInDim S8x1x1 (![] : Fin 0 → Fin S8x1x1.rank)
  shapeCasts_S8x1x1_S8x1x1x1 : S8x1x1.ShapeCasts S8x1x1x1
  bcast_S8x1x1x1_S8x8x1x49_0_1_2_3 : S8x1x1x1.BroadcastsInDim S8x8x1x49 (![0, 1, 2, 3] : Fin 4 → Fin S8x8x1x49.rank)
  shapeCasts_S8x8x1x49_S64x1x49 : S8x8x1x49.ShapeCasts S64x1x49
  shapeCasts_S32x256x56x56_S32x256x8x7x56 : S32x256x56x56.ShapeCasts S32x256x8x7x56
  inb_S1x256x1x7x56_S1x256x1x7x56_0_0_0_0_0 : ∀ a, (![0, 0, 0, 0, 0] : Fin 5 → Nat) a + S1x256x1x7x56.size a ≤ S1x256x1x7x56.size a
  h_S1x256x1x7x56 : 0 < S1x256x1x7x56.numel
  shapeCasts_S1x256x1x7x56_S256x7x56 : S1x256x1x7x56.ShapeCasts S256x7x56
  shapeCasts_S256x7x56_S8x32x7x8x7 : S256x7x56.ShapeCasts S8x32x7x8x7
  transposes_S8x32x7x8x7_p0_3_1_2_4_S8x8x32x7x7 : S8x32x7x8x7.Transposes [0, 3, 1, 2, 4] S8x8x32x7x7
  shapeCasts_S8x8x32x7x7_S64x32x49 : S8x8x32x7x7.ShapeCasts S64x32x49
  reduces_S64x32x49_S64x49 : S64x32x49.Reduces [1] S64x49
  shapeCasts_S64x49_S64x1x49 : S64x49.ShapeCasts S64x1x49
  broadcasts_S64x1x49_S64x32x49 : S64x1x49.Broadcasts S64x32x49
  inb_S64x1x49_S64x1x49_0_0_0 : ∀ a, (![0, 0, 0] : Fin 3 → Nat) a + S64x1x49.size a ≤ S64x1x49.size a
  h_S64x1x49 : 0 < S64x1x49.numel
  shapeCasts_S64x1x49_S64x1x49 : S64x1x49.ShapeCasts S64x1x49
  broadcasts_S64x1x49_S64x49x49 : S64x1x49.Broadcasts S64x49x49
  reduces_S64x49x49_S64x49 : S64x49x49.Reduces [1] S64x49
  shapeCasts_S64x32x49_S8x8x32x7x7 : S64x32x49.ShapeCasts S8x8x32x7x7
  transposes_S8x8x32x7x7_p0_2_3_1_4_S8x32x7x8x7 : S8x8x32x7x7.Transposes [0, 2, 3, 1, 4] S8x32x7x8x7
  shapeCasts_S8x32x7x8x7_S256x7x56 : S8x32x7x8x7.ShapeCasts S256x7x56
  shapeCasts_S256x7x56_S1x256x1x7x56 : S256x7x56.ShapeCasts S1x256x1x7x56
  shapeCasts_S32x256x8x7x56_S32x256x56x56 : S32x256x8x7x56.ShapeCasts S32x256x56x56
  dot_S64x32x49_S64x32x49_S64x49x49_1_1_2_2_0_0_wf : DotDims.WF S64x32x49 S64x32x49 S64x49x49 [1] [1] [2] [2] [0] [0]
  dot_S64x32x49_S64x49x49_S64x32x49_2_1_1_2_0_0_wf : DotDims.WF S64x32x49 S64x49x49 S64x32x49 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1x7x56.size a ≤ S32x256x8x7x56.size a
  hwx0_0 : ∀ i : grid0.Coords, EltTy.bits .f32 = 32 ∨ (Rect.block (s := S32x256x8x7x56) S1x256x1x7x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1x7x56.size a ≤ S32x256x8x7x56.size a
  hwx0_1 : ∀ i : grid0.Coords, EltTy.bits .f32 = 32 ∨ (Rect.block (s := S32x256x8x7x56) S1x256x1x7x56.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1x7x56.size a ≤ S32x256x8x7x56.size a
  hwx0_2 : ∀ i : grid0.Coords, EltTy.bits .f32 = 32 ∨ (Rect.block (s := S32x256x8x7x56) S1x256x1x7x56.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1x49.size a ≤ S64x1x49.size a
  hwx0_3 : ∀ i : grid0.Coords, EltTy.bits .f32 = 32 ∨ (Rect.block (s := S64x1x49) S64x1x49.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1x7x56.size a ≤ S32x256x8x7x56.size a
  hwx0_4 : ∀ i : grid0.Coords, EltTy.bits .f32 = 32 ∨ (Rect.block (s := S32x256x8x7x56) S1x256x1x7x56.size (cc0_transform_4 i) (hinb0_4 i)).WholeWords (EltTy.packing .f32)

variable [Facts₀]

def dot_S64x32x49_S64x32x49_S64x49x49_1_1_2_2_0_0 : DotDims S64x32x49 S64x32x49 S64x49x49 where
  lhsContracting := [1]
  rhsContracting := [1]
  lhsNonContracting := [2]
  rhsNonContracting := [2]
  lhsBatch := [0]
  rhsBatch := [0]
  wf := dot_S64x32x49_S64x32x49_S64x49x49_1_1_2_2_0_0_wf
def dot_S64x32x49_S64x49x49_S64x32x49_2_1_1_2_0_0 : DotDims S64x32x49 S64x49x49 S64x32x49 where
  lhsContracting := [2]
  rhsContracting := [1]
  lhsNonContracting := [1]
  rhsNonContracting := [2]
  lhsBatch := [0]
  rhsBatch := [0]
  wf := dot_S64x32x49_S64x49x49_S64x32x49_2_1_1_2_0_0_wf

abbrev win0_0 : Pipeline.Window sig grid0 :=
  Pipeline.Window.ofSpec (Memref.whole main_v6) S1x256x1x7x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x256x1x7x56.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x256x1x7x56.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S64x1x49.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x256x1x7x56.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x256x56x56 : Shape := ⟨4, ![32, 256, 56, 56]⟩
abbrev S8x1x1 : Shape := ⟨3, ![8, 1, 1]⟩
abbrev S32x8x32x8x7x8x7 : Shape := ⟨7, ![32, 8, 32, 8, 7, 8, 7]⟩
abbrev S32x8x8x8x7x7x32 : Shape := ⟨7, ![32, 8, 8, 8, 7, 7, 32]⟩
abbrev S32x64x8x49x32 : Shape := ⟨5, ![32, 64, 8, 49, 32]⟩
abbrev S_ : Shape := ⟨0, ![]⟩
abbrev S32x64x8x49 : Shape := ⟨4, ![32, 64, 8, 49]⟩
abbrev S32x64x8x49x1 : Shape := ⟨5, ![32, 64, 8, 49, 1]⟩
abbrev S32x64x8x49x49 : Shape := ⟨5, ![32, 64, 8, 49, 49]⟩
abbrev S1x1x8x1x1 : Shape := ⟨5, ![1, 1, 8, 1, 1]⟩

abbrev nBuf : Space → Nat
  | .hbm => 59
  | .vmem => 0
  | .smem => 0
  | _ => 0

abbrev bufTy : (tb : Table) → Fin (tcTables nBuf tb) → BufTy
  | .hbm, ⟨0, _⟩ => ⟨S32x256x56x56, .f32⟩
  | .hbm, ⟨1, _⟩ => ⟨S32x256x56x56, .f32⟩
  | .hbm, ⟨2, _⟩ => ⟨S32x256x56x56, .f32⟩
  | .hbm, ⟨3, _⟩ => ⟨S8x1x1, .f32⟩
  | .hbm, ⟨4, _⟩ => ⟨S32x8x32x8x7x8x7, .f32⟩
  | .hbm, ⟨5, _⟩ => ⟨S32x8x8x8x7x7x32, .f32⟩
  | .hbm, ⟨6, _⟩ => ⟨S32x64x8x49x32, .f32⟩
  | .hbm, ⟨7, _⟩ => ⟨S32x64x8x49x32, .f32⟩
  | .hbm, ⟨8, _⟩ => ⟨S_, .f32⟩
  | .hbm, ⟨9, _⟩ => ⟨S32x64x8x49, .f32⟩
  | .hbm, ⟨10, _⟩ => ⟨S32x64x8x49x1, .f32⟩
  | .hbm, ⟨11, _⟩ => ⟨S32x64x8x49x1, .f32⟩
  | .hbm, ⟨12, _⟩ => ⟨S_, .f32⟩
  | .hbm, ⟨13, _⟩ => ⟨S32x64x8x49x1, .f32⟩
  | .hbm, ⟨14, _⟩ => ⟨S32x64x8x49x1, .f32⟩
  | .hbm, ⟨15, _⟩ => ⟨S32x64x8x49x32, .f32⟩
  | .hbm, ⟨16, _⟩ => ⟨S32x64x8x49x32, .f32⟩
  | .hbm, ⟨17, _⟩ => ⟨S32x8x32x8x7x8x7, .f32⟩
  | .hbm, ⟨18, _⟩ => ⟨S32x8x8x8x7x7x32, .f32⟩
  | .hbm, ⟨19, _⟩ => ⟨S32x64x8x49x32, .f32⟩
  | .hbm, ⟨20, _⟩ => ⟨S32x64x8x49x32, .f32⟩
  | .hbm, ⟨21, _⟩ => ⟨S_, .f32⟩
  | .hbm, ⟨22, _⟩ => ⟨S32x64x8x49, .f32⟩
  | .hbm, ⟨23, _⟩ => ⟨S32x64x8x49x1, .f32⟩
  | .hbm, ⟨24, _⟩ => ⟨S32x64x8x49x1, .f32⟩
  | .hbm, ⟨25, _⟩ => ⟨S_, .f32⟩
  | .hbm, ⟨26, _⟩ => ⟨S32x64x8x49x1, .f32⟩
  | .hbm, ⟨27, _⟩ => ⟨S32x64x8x49x1, .f32⟩
  | .hbm, ⟨28, _⟩ => ⟨S32x64x8x49x32, .f32⟩
  | .hbm, ⟨29, _⟩ => ⟨S32x64x8x49x32, .f32⟩
  | .hbm, ⟨30, _⟩ => ⟨S32x8x32x8x7x8x7, .f32⟩
  | .hbm, ⟨31, _⟩ => ⟨S32x8x8x8x7x7x32, .f32⟩
  | .hbm, ⟨32, _⟩ => ⟨S32x64x8x49x32, .f32⟩
  | .hbm, ⟨33, _⟩ => ⟨S32x64x8x49x49, .f32⟩
  | .hbm, ⟨34, _⟩ => ⟨S_, .f32⟩
  | .hbm, ⟨35, _⟩ => ⟨S8x1x1, .f32⟩
  | .hbm, ⟨36, _⟩ => ⟨S8x1x1, .f32⟩
  | .hbm, ⟨37, _⟩ => ⟨S8x1x1, .f32⟩
  | .hbm, ⟨38, _⟩ => ⟨S1x1x8x1x1, .f32⟩
  | .hbm, ⟨39, _⟩ => ⟨S32x64x8x49x49, .f32⟩
  | .hbm, ⟨40, _⟩ => ⟨S32x64x8x49x49, .f32⟩
  | .hbm, ⟨41, _⟩ => ⟨S_, .f32⟩
  | .hbm, ⟨42, _⟩ => ⟨S32x64x8x49, .f32⟩
  | .hbm, ⟨43, _⟩ => ⟨S_, .f32⟩
  | .hbm, ⟨44, _⟩ => ⟨S32x64x8x49, .f32⟩
  | .hbm, ⟨45, _⟩ => ⟨S32x64x8x49, .f32⟩
  | .hbm, ⟨46, _⟩ => ⟨S32x64x8x49x1, .f32⟩
  | .hbm, ⟨47, _⟩ => ⟨S32x64x8x49x49, .f32⟩
  | .hbm, ⟨48, _⟩ => ⟨S32x64x8x49x49, .f32⟩
  | .hbm, ⟨49, _⟩ => ⟨S32x64x8x49x49, .f32⟩
  | .hbm, ⟨50, _⟩ => ⟨S_, .f32⟩
  | .hbm, ⟨51, _⟩ => ⟨S32x64x8x49, .f32⟩
  | .hbm, ⟨52, _⟩ => ⟨S32x64x8x49x1, .f32⟩
  | .hbm, ⟨53, _⟩ => ⟨S32x64x8x49x49, .f32⟩
  | .hbm, ⟨54, _⟩ => ⟨S32x64x8x49x49, .f32⟩
  | .hbm, ⟨55, _⟩ => ⟨S32x64x8x49x32, .f32⟩
  | .hbm, ⟨56, _⟩ => ⟨S32x8x8x8x7x7x32, .f32⟩
  | .hbm, ⟨57, _⟩ => ⟨S32x8x32x8x7x8x7, .f32⟩
  | .hbm, ⟨58, _⟩ => ⟨S32x256x56x56, .f32⟩
  | _, _ => ⟨S32x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call1_v0 : Ref sig .tc := ⟨.hbm, 20, rfl⟩
abbrev main_call1_cst : Ref sig .tc := ⟨.hbm, 21, rfl⟩
abbrev main_call1_v1 : Ref sig .tc := ⟨.hbm, 22, rfl⟩
abbrev main_call1_v2 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]

class Facts₀ : Prop where
  shapeCasts_S32x256x56x56_S32x8x32x8x7x8x7 : S32x256x56x56.ShapeCasts S32x8x32x8x7x8x7
  transposes_S32x8x32x8x7x8x7_S32x8x8x8x7x7x32_0_3_5_1_4_6_2 : S32x8x32x8x7x8x7.Transposes [0, 3, 5, 1, 4, 6, 2] S32x8x8x8x7x7x32
  shapeCasts_S32x8x8x8x7x7x32_S32x64x8x49x32 : S32x8x8x8x7x7x32.ShapeCasts S32x64x8x49x32
  reducesTo_S32x64x8x49x32_S32x64x8x49_d4 : S32x64x8x49x32.ReducesTo [4] S32x64x8x49
  h_S_ : 0 < S_.numel
  bcast_S32x64x8x49_S32x64x8x49x1_0_1_2_3 : S32x64x8x49.BroadcastsInDim S32x64x8x49x1 (![0, 1, 2, 3] : Fin 4 → Fin S32x64x8x49x1.rank)
  bcast_S_S32x64x8x49x1 : S_.BroadcastsInDim S32x64x8x49x1 (![] : Fin 0 → Fin S32x64x8x49x1.rank)
  bcast_S32x64x8x49x1_S32x64x8x49x32_0_1_2_3_4 : S32x64x8x49x1.BroadcastsInDim S32x64x8x49x32 (![0, 1, 2, 3, 4] : Fin 5 → Fin S32x64x8x49x32.rank)
  bcast_S_S8x1x1 : S_.BroadcastsInDim S8x1x1 (![] : Fin 0 → Fin S8x1x1.rank)
  bcast_S8x1x1_S1x1x8x1x1_2_3_4 : S8x1x1.BroadcastsInDim S1x1x8x1x1 (![2, 3, 4] : Fin 3 → Fin S1x1x8x1x1.rank)
  bcast_S1x1x8x1x1_S32x64x8x49x49_0_1_2_3_4 : S1x1x8x1x1.BroadcastsInDim S32x64x8x49x49 (![0, 1, 2, 3, 4] : Fin 5 → Fin S32x64x8x49x49.rank)
  reducesTo_S32x64x8x49x49_S32x64x8x49_d4 : S32x64x8x49x49.ReducesTo [4] S32x64x8x49
  bcast_S_S32x64x8x49 : S_.BroadcastsInDim S32x64x8x49 (![] : Fin 0 → Fin S32x64x8x49.rank)
  bcast_S32x64x8x49x1_S32x64x8x49x49_0_1_2_3_4 : S32x64x8x49x1.BroadcastsInDim S32x64x8x49x49 (![0, 1, 2, 3, 4] : Fin 5 → Fin S32x64x8x49x49.rank)
  shapeCasts_S32x64x8x49x32_S32x8x8x8x7x7x32 : S32x64x8x49x32.ShapeCasts S32x8x8x8x7x7x32
  transposes_S32x8x8x8x7x7x32_S32x8x32x8x7x8x7_0_3_6_1_4_2_5 : S32x8x8x8x7x7x32.Transposes [0, 3, 6, 1, 4, 2, 5] S32x8x32x8x7x8x7
  shapeCasts_S32x8x32x8x7x8x7_S32x256x56x56 : S32x8x32x8x7x8x7.ShapeCasts S32x256x56x56
  dot_S32x64x8x49x32_S32x64x8x49x32_S32x64x8x49x49_4_4_3_3_012_012_wf : DotDims.WF S32x64x8x49x32 S32x64x8x49x32 S32x64x8x49x49 [4] [4] [3] [3] [0, 1, 2] [0, 1, 2]
  dot_S32x64x8x49x49_S32x64x8x49x32_S32x64x8x49x32_4_3_3_4_012_012_wf : DotDims.WF S32x64x8x49x49 S32x64x8x49x32 S32x64x8x49x32 [4] [3] [3] [4] [0, 1, 2] [0, 1, 2]

variable [Facts₀]

def dot_S32x64x8x49x32_S32x64x8x49x32_S32x64x8x49x49_4_4_3_3_012_012 : DotDims S32x64x8x49x32 S32x64x8x49x32 S32x64x8x49x49 where
  lhsContracting := [4]
  rhsContracting := [4]
  lhsNonContracting := [3]
  rhsNonContracting := [3]
  lhsBatch := [0, 1, 2]
  rhsBatch := [0, 1, 2]
  wf := dot_S32x64x8x49x32_S32x64x8x49x32_S32x64x8x49x49_4_4_3_3_012_012_wf
def dot_S32x64x8x49x49_S32x64x8x49x32_S32x64x8x49x32_4_3_3_4_012_012 : DotDims S32x64x8x49x49 S32x64x8x49x32 S32x64x8x49x32 where
  lhsContracting := [4]
  rhsContracting := [3]
  lhsNonContracting := [3]
  rhsNonContracting := [4]
  lhsBatch := [0, 1, 2]
  rhsBatch := [0, 1, 2]
  wf := dot_S32x64x8x49x49_S32x64x8x49x32_S32x64x8x49x32_4_3_3_4_012_012_wf

class Facts : Prop extends Facts₀ where

variable [Facts]
-- ==== Proof.Spec.lean ====
/-
  Windowed cosine attention, stated once as a function of the four argument arrays.

  The input tensors have layout [batch 32, channel 256, row 56, column 56].  A channel is a pair
  (head h < 8, depth d < 32), channel = 32 h + d; a row is (strip hh < 8, w1 < 7), row = 7 hh + w1; a column
  is (window ww < 8, w2 < 7), column = 7 ww + w2.  For fixed (batch, hh, h, ww) the 49 positions
  s = 7 w1 + w2 of the 7 × 7 spatial window are the tokens, each a vector of 32 depths.

  Per window:  every token of q and of k is divided by max(‖·‖₂, ε);  logits L s t = ⟨q̂ s, k̂ t⟩ · σ_h with
  σ_h = exp (min (logit_scale h, c));  softmax over t (subtract the row maximum, exponentiate, divide by
  the row sum);  out d s = Σ_t softmax s t · v d t.  All operations are the exact ones on the extended reals.
-/
import Idealize.ShloMosaic.PureOps.Ideal
import Idealize.ShloMosaic.PureOps.Ideal.Laws
import Idealize.ShloMosaic.Lib.ValueIdx

noncomputable section

namespace Cert.WinAttn

open Idealize.ShloMosaic Idealize.ShloMosaic.ValueIdx

/-- An input or output tensor: [32, 256, 56, 56]. -/
abbrev Arr : Type := (⟨4, ![32, 256, 56, 56]⟩ : Shape).Idx → EReal
/-- The per-head logit scale: [8, 1, 1]. -/
abbrev Scl : Type := (⟨3, ![8, 1, 1]⟩ : Shape).Idx → EReal

/-- The norm floor ε (the f32 nearest 1e-12), the clamp c (the f32 nearest 4.6052) and −∞, as the bit
    patterns both programs carry; none is ever evaluated. -/
def eps : EReal := Ideal.ofBits .f32 0x2B8CBCCC#32
def clamp : EReal := Ideal.ofBits .f32 0x40935DCC#32
def ninf : EReal := Ideal.ofBits .f32 0xFF800000#32

/-! ## One window: X d s is depth d of token s -/

/-- max(‖token s‖₂, ε). -/
def nrm (X : Fin 32 → Fin 49 → EReal) (s : Fin 49) : EReal :=
  max (Ideal.sqrt (∑ d : Fin 32, X d s * X d s)) eps

/-- The normalized token. -/
def unit (X : Fin 32 → Fin 49 → EReal) (d : Fin 32) (s : Fin 49) : EReal :=
  Ideal.div (X d s) (nrm X s)

/-- The scaled cosine logit of query token s against key token t. -/
def logit (Q K : Fin 32 → Fin 49 → EReal) (σ : EReal) (s t : Fin 49) : EReal :=
  (∑ d : Fin 32, unit Q d s * unit K d t) * σ

/-- The largest logit of row s (the fold of max from −∞). -/
def rowmax (L : Fin 49 → Fin 49 → EReal) (s : Fin 49) : EReal :=
  (Finset.univ : Finset (Fin 49)).fold max ninf (fun t => L s t)

/-- exp (L s t − max_t L s t). -/
def wexp (L : Fin 49 → Fin 49 → EReal) (s t : Fin 49) : EReal :=
  Ideal.exp (L s t - rowmax L s)

/-- The softmax weight of key t for query s. -/
def attn (L : Fin 49 → Fin 49 → EReal) (s t : Fin 49) : EReal :=
  Ideal.div (wexp L s t) (∑ t' : Fin 49, wexp L s t')

/-- The attention output: depth d of token s. -/
def out (Q K V : Fin 32 → Fin 49 → EReal) (σ : EReal) (d : Fin 32) (s : Fin 49) : EReal :=
  ∑ t : Fin 49, attn (logit Q K σ) s t * V d t

/-- The logit with the two factors of every product exchanged (the order in which a program that
    keeps the depth axis before the token axis multiplies them). -/
theorem logit_comm (Q K : Fin 32 → Fin 49 → EReal) (σ : EReal) (s t : Fin 49) :
    (∑ d : Fin 32, unit K d t * unit Q d s) * σ = logit Q K σ s t := by
  unfold logit
  exact congrArg (· * σ) (Finset.sum_congr rfl fun d _ => mul_comm _ _)

/-- The output with value times weight instead of weight times value. -/
theorem out_comm (Q K V : Fin 32 → Fin 49 → EReal) (σ : EReal) (d : Fin 32) (s : Fin 49) :
    ∑ t : Fin 49, V d t * attn (logit Q K σ) s t = out Q K V σ d s := by
  unfold out
  exact Finset.sum_congr rfl fun t _ => mul_comm _ _

/-- A maximum with −∞ taken once more on the left changes nothing: the fold already starts from −∞. -/
theorem max_ninf_rowmax (L : Fin 49 → Fin 49 → EReal) (s : Fin 49) : max ninf (rowmax L s) = rowmax L s :=
  max_eq_right ((Finset.le_fold_max ninf).2 (Or.inl le_rfl))

/-! ## The windows of a tensor -/

/-- Window (b, hh, h, ww) of tensor x as tokens: depth d of token s is x[b, 32 h + d, 7 hh + s / 7, 7 ww + s % 7]. -/
def tokens (x : Arr) (b : Fin 32) (hh h ww : Fin 8) (d : Fin 32) (s : Fin 49) : EReal :=
  x (ix4 b (⟨h.val * 32 + d.val, by omega⟩ : Fin 256) (⟨hh.val * 7 + s.val / 7, by omega⟩ : Fin 56)
    (⟨ww.val * 7 + s.val % 7, by omega⟩ : Fin 56))

/-- σ_h = exp (min (logit_scale h, c)). -/
def scale (ls : Scl) (h : Fin 8) : EReal := Ideal.exp (min (ls (ix3 h (0 : Fin 1) (0 : Fin 1))) clamp)

/-- The result at (b, channel, row, column) by coordinates. -/
def result (q k v : Arr) (ls : Scl) (b : Fin 32) (c : Fin 256) (y x : Fin 56) : EReal :=
  out (tokens q b (⟨y.val / 7, by omega⟩ : Fin 8) (⟨c.val / 32, by omega⟩ : Fin 8) (⟨x.val / 7, by omega⟩ : Fin 8))
    (tokens k b (⟨y.val / 7, by omega⟩ : Fin 8) (⟨c.val / 32, by omega⟩ : Fin 8) (⟨x.val / 7, by omega⟩ : Fin 8))
    (tokens v b (⟨y.val / 7, by omega⟩ : Fin 8) (⟨c.val / 32, by omega⟩ : Fin 8) (⟨x.val / 7, by omega⟩ : Fin 8))
    (scale ls (⟨c.val / 32, by omega⟩ : Fin 8))
    (⟨c.val % 32, by omega⟩ : Fin 32) (⟨y.val % 7 * 7 + x.val % 7, by omega⟩ : Fin 49)

/-- The whole result tensor. -/
def G (q k v : Arr) (ls : Scl) : Arr := fun i => result q k v ls (i 0) (i 1) (i 2) (i 3)

end Cert.WinAttn

end
-- ==== Proof.KLayout.lean ====
/-
  The token layout of one row-strip block, read at an index.

  A block holds one batch element and one strip of 7 rows: [1, 256, 1, 7, 56] = (·, channel, ·, w1, column).
  The body regroups it as [64, 32, 49] = (8 h + ww, d, 7 w1 + w2) with channel = 32 h + d and column = 7 ww + w2:
  a cast to (h, d, w1, ww, w2), the transposition to (h, ww, d, w1, w2), and a cast that merges (h, ww) and (w1, w2).
  The result block is regrouped the opposite way.  Both are pure re-indexings; the two lemmas below say which entry
  of the operand each entry of the result is.
-/
import proofs.«151083_g88295937671568_pilotgen1_385_6_alg».proof.Proof.Gen.KernelIdeal
import Idealize.ShloMosaic.Lib.Pipeline.Value
import Idealize.ShloMosaic.Lib.ValueIdx

noncomputable section

namespace Cert.WinAttn.Kernel

open Idealize.ShloMosaic Idealize.ShloMosaic.ValueIdx Cert.KernelIdeal

variable {α : Type}

/-- Entry (B, d, s) of the regrouped block is the block's entry at channel 32 (B / 8) + d, row s / 7 of the strip
    and column 7 (B % 8) + s % 7. -/
theorem gather_apply (blk : S1x256x1x7x56.Idx → α)
    (h1 : S1x256x1x7x56.ShapeCasts S256x7x56) (h2 : S256x7x56.ShapeCasts S8x32x7x8x7)
    (h3 : S8x32x7x8x7.Transposes [0, 3, 1, 2, 4] S8x8x32x7x7) (h4 : S8x8x32x7x7.ShapeCasts S64x32x49)
    (B : Fin 64) (d : Fin 32) (s : Fin 49) :
    shapeCast S64x32x49 (transpose S8x8x32x7x7 [0, 3, 1, 2, 4]
        (shapeCast S8x32x7x8x7 (shapeCast S256x7x56 blk h1) h2) h3) h4 (ix3 B d s)
      = blk (ix5 (0 : Fin 1) (⟨B.val / 8 * 32 + d.val, by omega⟩ : Fin 256) (0 : Fin 1) (⟨s.val / 7, by omega⟩ : Fin 7)
          (⟨B.val % 8 * 7 + s.val % 7, by omega⟩ : Fin 56)) := by
  refine (shapeCast_apply _ h4 _ (ix5 (⟨B.val / 8, by omega⟩ : Fin 8) (⟨B.val % 8, by omega⟩ : Fin 8) d
    (⟨s.val / 7, by omega⟩ : Fin 7) (⟨s.val % 7, by omega⟩ : Fin 7)) ?_).trans ?_
  · rw [Shape.rowMajor_val_five, Shape.rowMajor_val_three]
    show ((((B.val / 8) * 8 + B.val % 8) * 32 + d.val) * 7 + s.val / 7) * 7 + s.val % 7 = (B.val * 32 + d.val) * 49 + s.val
    omega
  refine (transpose_apply _ _ h3 _ (ix5 (⟨B.val / 8, by omega⟩ : Fin 8) d (⟨s.val / 7, by omega⟩ : Fin 7)
    (⟨B.val % 8, by omega⟩ : Fin 8) (⟨s.val % 7, by omega⟩ : Fin 7))
    (fun b => match b with | ⟨0, _⟩ => rfl | ⟨1, _⟩ => rfl | ⟨2, _⟩ => rfl | ⟨3, _⟩ => rfl | ⟨4, _⟩ => rfl)).trans ?_
  refine (shapeCast_apply _ h2 _ (ix3 (⟨B.val / 8 * 32 + d.val, by omega⟩ : Fin 256) (⟨s.val / 7, by omega⟩ : Fin 7)
    (⟨B.val % 8 * 7 + s.val % 7, by omega⟩ : Fin 56)) ?_).trans ?_
  · rw [Shape.rowMajor_val_three, Shape.rowMajor_val_five]
    show ((B.val / 8 * 32 + d.val) * 7 + s.val / 7) * 56 + (B.val % 8 * 7 + s.val % 7) = ((((B.val / 8) * 32 + d.val) * 7 + s.val / 7) * 8 + B.val % 8) * 7 + s.val % 7
    omega
  refine shapeCast_apply _ h1 _ _ ?_
  rw [Shape.rowMajor_val_five, Shape.rowMajor_val_three]
  show (((0 * 256 + (B.val / 8 * 32 + d.val)) * 1 + 0) * 7 + s.val / 7) * 56 + (B.val % 8 * 7 + s.val % 7) = ((B.val / 8 * 32 + d.val) * 7 + s.val / 7) * 56 + (B.val % 8 * 7 + s.val % 7)
  omega

/-- Entry (·, c, ·, w1, x) of the result block is entry (8 (c / 32) + x / 7, c % 32, 7 w1 + x % 7) of the
    [64, 32, 49] value it is regrouped from. -/
theorem scatter_apply (z : S64x32x49.Idx → α)
    (h1 : S64x32x49.ShapeCasts S8x8x32x7x7) (h2 : S8x8x32x7x7.Transposes [0, 2, 3, 1, 4] S8x32x7x8x7)
    (h3 : S8x32x7x8x7.ShapeCasts S256x7x56) (h4 : S256x7x56.ShapeCasts S1x256x1x7x56)
    (u u' : Fin 1) (c : Fin 256) (w1 : Fin 7) (x : Fin 56) :
    shapeCast S1x256x1x7x56 (shapeCast S256x7x56 (transpose S8x32x7x8x7 [0, 2, 3, 1, 4]
        (shapeCast S8x8x32x7x7 z h1) h2) h3) h4 (ix5 u c u' w1 x)
      = z (ix3 (⟨c.val / 32 * 8 + x.val / 7, by omega⟩ : Fin 64) (⟨c.val % 32, by omega⟩ : Fin 32)
          (⟨w1.val * 7 + x.val % 7, by omega⟩ : Fin 49)) := by
  have hu : u.val = 0 := by omega
  have hu' : u'.val = 0 := by omega
  refine (shapeCast_apply _ h4 _ (ix3 c w1 x) ?_).trans ?_
  · rw [Shape.rowMajor_val_three, Shape.rowMajor_val_five]
    show (c.val * 7 + w1.val) * 56 + x.val = ((((u.val * 256 + c.val) * 1 + u'.val) * 7 + w1.val) * 56 + x.val)
    rw [hu, hu']; omega
  refine (shapeCast_apply _ h3 _ (ix5 (⟨c.val / 32, by omega⟩ : Fin 8) (⟨c.val % 32, by omega⟩ : Fin 32) w1
    (⟨x.val / 7, by omega⟩ : Fin 8) (⟨x.val % 7, by omega⟩ : Fin 7)) ?_).trans ?_
  · rw [Shape.rowMajor_val_five, Shape.rowMajor_val_three]
    show ((((c.val / 32) * 32 + c.val % 32) * 7 + w1.val) * 8 + x.val / 7) * 7 + x.val % 7 = (c.val * 7 + w1.val) * 56 + x.val
    omega
  refine (transpose_apply _ _ h2 _ (ix5 (⟨c.val / 32, by omega⟩ : Fin 8) (⟨x.val / 7, by omega⟩ : Fin 8)
    (⟨c.val % 32, by omega⟩ : Fin 32) w1 (⟨x.val % 7, by omega⟩ : Fin 7))
    (fun b => match b with | ⟨0, _⟩ => rfl | ⟨1, _⟩ => rfl | ⟨2, _⟩ => rfl | ⟨3, _⟩ => rfl | ⟨4, _⟩ => rfl)).trans ?_
  refine shapeCast_apply _ h1 _ _ ?_
  rw [Shape.rowMajor_val_three, Shape.rowMajor_val_five]
  show ((c.val / 32 * 8 + x.val / 7) * 32 + c.val % 32) * 49 + (w1.val * 7 + x.val % 7) = ((((c.val / 32) * 8 + x.val / 7) * 32 + c.val % 32) * 7 + w1.val) * 7 + x.val % 7
  omega

end Cert.WinAttn.Kernel

end
-- ==== Proof.KOps.lean ====
/-
  The operations of the attention body read at an index, at the extended reals: the keep-dimension casts and
  broadcasts, the sums and the maximum over the middle axis of a [64, n, 49] value, and the two batched matrix
  products (logits: contraction over the 32 depths; output: contraction over the 49 key tokens).
-/
import proofs.«151083_g88295937671568_pilotgen1_385_6_alg».proof.Proof.Gen.KernelIdeal
import Idealize.ShloMosaic.Lib.Pipeline.Value
import Idealize.ShloMosaic.Lib.ValueIdx
import Idealize.ShloMosaic.PureOps.Ideal.Laws

noncomputable section

namespace Cert.WinAttn.Kernel

open Idealize.ShloMosaic Idealize.ShloMosaic.ValueIdx Cert.KernelIdeal

variable {α : Type}

/-! ## Layout -/

/-- [64, 49] → [64, 1, 49]: the unit axis carries no information. -/
theorem keep_apply (v : S64x49.Idx → α) (h : S64x49.ShapeCasts S64x1x49) (B : Fin 64) (u : Fin 1) (s : Fin 49) :
    shapeCast S64x1x49 v h (ix3 B u s) = v (ix2 B s) :=
  shapeCast_apply v h _ _ (by
    have hu : u.val = 0 := by omega
    rw [Shape.rowMajor_val_two, Shape.rowMajor_val_three]
    show B.val * 49 + s.val = (B.val * 1 + u.val) * 49 + s.val
    rw [hu]; omega)

/-- [64, 1, 49] → [64, 1, 49]: the identity. -/
theorem same_apply (v : S64x1x49.Idx → α) (h : S64x1x49.ShapeCasts S64x1x49) (i : S64x1x49.Idx) :
    shapeCast S64x1x49 v h i = v i := by rw [shapeCast_self]

/-- [64, 1, 49] → [64, 32, 49]: every depth reads the one row. -/
theorem bcast_depth_apply (v : S64x1x49.Idx → α) (h : S64x1x49.Broadcasts S64x32x49) (B : Fin 64) (d : Fin 32) (s : Fin 49) :
    broadcastTo S64x32x49 v h (ix3 B d s) = v (ix3 B (0 : Fin 1) s) := by
  refine broadcastTo_apply v h (ix3 B d s) (ix3 B (0 : Fin 1) s) fun ax => ?_
  match ax with
  | ⟨0, _⟩ => rfl
  | ⟨1, _⟩ => rfl
  | ⟨2, _⟩ => rfl

/-- [64, 1, 49] → [64, 49, 49]: every key token reads the one row. -/
theorem bcast_key_apply (v : S64x1x49.Idx → α) (h : S64x1x49.Broadcasts S64x49x49) (B : Fin 64) (t s : Fin 49) :
    broadcastTo S64x49x49 v h (ix3 B t s) = v (ix3 B (0 : Fin 1) s) := by
  refine broadcastTo_apply v h (ix3 B t s) (ix3 B (0 : Fin 1) s) fun ax => ?_
  match ax with
  | ⟨0, _⟩ => rfl
  | ⟨1, _⟩ => rfl
  | ⟨2, _⟩ => rfl

/-! ## Reductions over the middle axis -/

/-- The sum over the 32 depths. -/
theorem sum_depth_apply (v : FVec Ideal S64x32x49 .f32) (h : S64x32x49.Reduces [1] S64x49) (B : Fin 64) (s : Fin 49) :
    multiReduction .add [1] S64x49 v 0x00000000#32 h (.inl rfl) rfl (ix2 B s) = ∑ d : Fin 32, v (ix3 B d s) := by
  refine (Ideal.multiReduction_add_single v _ h _ _ (ix2 B s)).trans ?_
  exact Finset.sum_congr rfl fun d _ => congrArg v (funext fun a => Fin.ext (by
    match a with | ⟨0, _⟩ => rfl | ⟨1, _⟩ => rfl | ⟨2, _⟩ => rfl))

/-- The sum over the 49 key tokens. -/
theorem sum_key_apply (v : FVec Ideal S64x49x49 .f32) (h : S64x49x49.Reduces [1] S64x49) (B : Fin 64) (s : Fin 49) :
    multiReduction .add [1] S64x49 v 0x00000000#32 h (.inl rfl) rfl (ix2 B s) = ∑ t : Fin 49, v (ix3 B t s) := by
  refine (Ideal.multiReduction_add_single v _ h _ _ (ix2 B s)).trans ?_
  exact Finset.sum_congr rfl fun t _ => congrArg v (funext fun a => Fin.ext (by
    match a with | ⟨0, _⟩ => rfl | ⟨1, _⟩ => rfl | ⟨2, _⟩ => rfl))

/-- The maximum over the 49 key tokens, folded from −∞. -/
theorem max_key_apply (v : FVec Ideal S64x49x49 .f32) (h : S64x49x49.Reduces [1] S64x49) (B : Fin 64) (s : Fin 49) :
    multiReduction .maximumf [1] S64x49 v 0xFF800000#32 h (.inl rfl) rfl (ix2 B s)
      = (Finset.univ : Finset (Fin 49)).fold max (Ideal.ofBits .f32 0xFF800000#32) (fun t => v (ix3 B t s)) := by
  refine (Ideal.multiReduction_maximumf_single v _ h _ _ (ix2 B s)).trans ?_
  refine congrArg (Finset.fold max _ · Finset.univ) (funext fun t => ?_)
  exact congrArg v (funext fun a => Fin.ext (by
    match a with | ⟨0, _⟩ => rfl | ⟨1, _⟩ => rfl | ⟨2, _⟩ => rfl))

end Cert.WinAttn.Kernel

end
-- ==== Proof.KMatmul.lean ====
/-
  The two batched matrix products of the attention body read at an index, at the extended reals.
  Both accumulate into zero, so each entry is the plain sum over the one contracted axis of the products of the
  operands' entries:  logits (B, t, s) = Σ_d l (B, d, t) · r (B, d, s)  and  output (B, d, s) = Σ_t l (B, d, t) · r (B, t, s).
-/
import proofs.«151083_g88295937671568_pilotgen1_385_6_alg».proof.Proof.Gen.KernelIdeal
import Idealize.ShloMosaic.Lib.Pipeline.Value
import Idealize.ShloMosaic.Lib.ValueIdx
import Idealize.ShloMosaic.PureOps.Ideal.Laws

noncomputable section

namespace Cert.WinAttn.Kernel

open Idealize.ShloMosaic Idealize.ShloMosaic.ValueIdx Cert.KernelIdeal

/-- The dimension numbers of the logit product: batch axis 0, both operands contracted over axis 1 (depth). -/
abbrev dotQK : DotDims S64x32x49 S64x32x49 S64x49x49 := dot_S64x32x49_S64x32x49_S64x49x49_1_1_2_2_0_0
/-- The dimension numbers of the output product: batch axis 0, the left operand contracted over axis 2 and the
    right over axis 1 (key token). -/
abbrev dotAV : DotDims S64x32x49 S64x49x49 S64x32x49 := dot_S64x32x49_S64x49x49_S64x32x49_2_1_1_2_0_0

/-! ## The operand indices of the logit product, coordinate by coordinate -/

theorem qk_lhs_0 (i : S64x49x49.Idx) (q : dotQK.contr.Idx) : (dotQK.lhsIdx i q 0).val = (i 0).val := by
  unfold DotDims.lhsIdx
  rw [dif_pos (show (0 : Fin S64x32x49.rank) ∈ dotQK.lhsBatch by decide)]
  rfl
theorem qk_lhs_1 (i : S64x49x49.Idx) (q : dotQK.contr.Idx) : (dotQK.lhsIdx i q 1).val = (q ⟨0, by decide⟩).val :=
  dotQK.lhsIdx_val_of_single rfl i q
theorem qk_lhs_2 (i : S64x49x49.Idx) (q : dotQK.contr.Idx) : (dotQK.lhsIdx i q 2).val = (i 1).val := by
  unfold DotDims.lhsIdx
  rw [dif_neg (show ¬(2 : Fin S64x32x49.rank) ∈ dotQK.lhsBatch by decide),
    dif_pos (show (2 : Fin S64x32x49.rank) ∈ dotQK.lhsNonContracting by decide)]
  rfl
theorem qk_rhs_0 (i : S64x49x49.Idx) (q : dotQK.contr.Idx) : (dotQK.rhsIdx i q 0).val = (i 0).val := by
  unfold DotDims.rhsIdx
  rw [dif_pos (show (0 : Fin S64x32x49.rank) ∈ dotQK.rhsBatch by decide)]
  rfl
theorem qk_rhs_1 (i : S64x49x49.Idx) (q : dotQK.contr.Idx) : (dotQK.rhsIdx i q 1).val = (q ⟨0, by decide⟩).val :=
  dotQK.rhsIdx_val_of_single rfl i q
theorem qk_rhs_2 (i : S64x49x49.Idx) (q : dotQK.contr.Idx) : (dotQK.rhsIdx i q 2).val = (i 2).val := by
  unfold DotDims.rhsIdx
  rw [dif_neg (show ¬(2 : Fin S64x32x49.rank) ∈ dotQK.rhsBatch by decide),
    dif_pos (show (2 : Fin S64x32x49.rank) ∈ dotQK.rhsNonContracting by decide)]
  rfl

/-- Entry (B, t, s) of the logit product is Σ_d l (B, d, t) · r (B, d, s). -/
theorem logits_apply (l r : FVec Ideal S64x32x49 .f32) (B : Fin 64) (t s : Fin 49) :
    matmul dotQK none l r (constant S64x49x49 .f32 0x00000000#32) (ix3 B t s)
      = ∑ d : Fin 32, l (ix3 B d t) * r (ix3 B d s) := by
  simp only [matmul]
  rw [Ideal.matmul_constant_zero_apply, ← Equiv.sum_comp (contrEquiv1 dotQK 32 rfl rfl).symm]
  refine Finset.sum_congr rfl fun k _ => ?_
  have hk := contrEquiv1_symm_val dotQK 32 rfl rfl k
  have el : dotQK.lhsIdx (ix3 B t s) ((contrEquiv1 dotQK 32 rfl rfl).symm k) = ix3 B k t := funext fun a => Fin.ext (by
    match a with
    | ⟨0, _⟩ => exact qk_lhs_0 _ _
    | ⟨1, _⟩ => exact (qk_lhs_1 _ _).trans hk
    | ⟨2, _⟩ => exact qk_lhs_2 _ _)
  have er : dotQK.rhsIdx (ix3 B t s) ((contrEquiv1 dotQK 32 rfl rfl).symm k) = ix3 B k s := funext fun a => Fin.ext (by
    match a with
    | ⟨0, _⟩ => exact qk_rhs_0 _ _
    | ⟨1, _⟩ => exact (qk_rhs_1 _ _).trans hk
    | ⟨2, _⟩ => exact qk_rhs_2 _ _)
  rw [el, er]

/-! ## The operand indices of the output product -/

theorem av_lhs_0 (i : S64x32x49.Idx) (q : dotAV.contr.Idx) : (dotAV.lhsIdx i q 0).val = (i 0).val := by
  unfold DotDims.lhsIdx
  rw [dif_pos (show (0 : Fin S64x32x49.rank) ∈ dotAV.lhsBatch by decide)]
  rfl
theorem av_lhs_1 (i : S64x32x49.Idx) (q : dotAV.contr.Idx) : (dotAV.lhsIdx i q 1).val = (i 1).val := by
  unfold DotDims.lhsIdx
  rw [dif_neg (show ¬(1 : Fin S64x32x49.rank) ∈ dotAV.lhsBatch by decide),
    dif_pos (show (1 : Fin S64x32x49.rank) ∈ dotAV.lhsNonContracting by decide)]
  rfl
theorem av_lhs_2 (i : S64x32x49.Idx) (q : dotAV.contr.Idx) : (dotAV.lhsIdx i q 2).val = (q ⟨0, by decide⟩).val :=
  dotAV.lhsIdx_val_of_single rfl i q
theorem av_rhs_0 (i : S64x32x49.Idx) (q : dotAV.contr.Idx) : (dotAV.rhsIdx i q 0).val = (i 0).val := by
  unfold DotDims.rhsIdx
  rw [dif_pos (show (0 : Fin S64x49x49.rank) ∈ dotAV.rhsBatch by decide)]
  rfl
theorem av_rhs_1 (i : S64x32x49.Idx) (q : dotAV.contr.Idx) : (dotAV.rhsIdx i q 1).val = (q ⟨0, by decide⟩).val :=
  dotAV.rhsIdx_val_of_single rfl i q
theorem av_rhs_2 (i : S64x32x49.Idx) (q : dotAV.contr.Idx) : (dotAV.rhsIdx i q 2).val = (i 2).val := by
  unfold DotDims.rhsIdx
  rw [dif_neg (show ¬(2 : Fin S64x49x49.rank) ∈ dotAV.rhsBatch by decide),
    dif_pos (show (2 : Fin S64x49x49.rank) ∈ dotAV.rhsNonContracting by decide)]
  rfl

/-- Entry (B, d, s) of the output product is Σ_t l (B, d, t) · r (B, t, s). -/
theorem output_apply (l : FVec Ideal S64x32x49 .f32) (r : FVec Ideal S64x49x49 .f32) (B : Fin 64) (d : Fin 32) (s : Fin 49) :
    matmul dotAV none l r (constant S64x32x49 .f32 0x00000000#32) (ix3 B d s)
      = ∑ t : Fin 49, l (ix3 B d t) * r (ix3 B t s) := by
  simp only [matmul]
  rw [Ideal.matmul_constant_zero_apply, ← Equiv.sum_comp (contrEquiv1 dotAV 49 rfl rfl).symm]
  refine Finset.sum_congr rfl fun k _ => ?_
  have hk := contrEquiv1_symm_val dotAV 49 rfl rfl k
  have el : dotAV.lhsIdx (ix3 B d s) ((contrEquiv1 dotAV 49 rfl rfl).symm k) = ix3 B d k := funext fun a => Fin.ext (by
    match a with
    | ⟨0, _⟩ => exact av_lhs_0 _ _
    | ⟨1, _⟩ => exact av_lhs_1 _ _
    | ⟨2, _⟩ => exact (av_lhs_2 _ _).trans hk)
  have er : dotAV.rhsIdx (ix3 B d s) ((contrEquiv1 dotAV 49 rfl rfl).symm k) = ix3 B k s := funext fun a => Fin.ext (by
    match a with
    | ⟨0, _⟩ => exact av_rhs_0 _ _
    | ⟨1, _⟩ => exact (av_rhs_1 _ _).trans hk
    | ⟨2, _⟩ => exact av_rhs_2 _ _)
  rw [el, er]

end Cert.WinAttn.Kernel

end
-- ==== Proof.KPay.lean ====
/-
  What the attention body stores, as a function of the four blocks it loads.

  The stored block is re-grouped from a [64, 32, 49] value whose entry (B, d, s) — B = 8 h + ww the window of the
  strip, d the depth, s the query token — is the attention output of window B: the softmax over key tokens t of
  the scaled cosine logits, applied to the values.  The body keeps the key-token axis BEFORE the query-token axis
  (logits (B, t, s), reductions over the middle axis) and multiplies key by query and value by weight; the
  specification multiplies in the other order, and the two agree because multiplication commutes.
-/
import proofs.«151083_g88295937671568_pilotgen1_385_6_alg».proof.Proof.Gen.KernelIdeal.Skeleton
import proofs.«151083_g88295937671568_pilotgen1_385_6_alg».proof.Proof.Spec
import proofs.«151083_g88295937671568_pilotgen1_385_6_alg».proof.Proof.KLayout
import proofs.«151083_g88295937671568_pilotgen1_385_6_alg».proof.Proof.KOps
import proofs.«151083_g88295937671568_pilotgen1_385_6_alg».proof.Proof.KMatmul

noncomputable section

namespace Cert.WinAttn.Kernel

open Idealize.ShloMosaic Idealize.ShloMosaic.ValueIdx Cert.KernelIdeal Cert.KernelIdeal.Gen Cert.WinAttn

/-! ## The body's stages, named -/

/-- A loaded block re-grouped as (window, depth, token). -/
def regroup (x : Vec Ideal S1x256x1x7x56 .f32) : FVec Ideal S64x32x49 .f32 :=
  shapeCast S64x32x49 (transpose S8x8x32x7x7 [0, 3, 1, 2, 4]
    (shapeCast S8x32x7x8x7 (shapeCast S256x7x56 x shapeCasts_S1x256x1x7x56_S256x7x56) shapeCasts_S256x7x56_S8x32x7x8x7)
    transposes_S8x32x7x8x7_p0_3_1_2_4_S8x8x32x7x7) shapeCasts_S8x8x32x7x7_S64x32x49

/-- Every token divided by max(its Euclidean norm over the depths, ε). -/
def normalize (x : FVec Ideal S64x32x49 .f32) : FVec Ideal S64x32x49 .f32 :=
  divf x (broadcastTo S64x32x49 (maximumf (sqrt (shapeCast S64x1x49
    (multiReduction .add [1] S64x49 (mulf x x) 0x00000000#32 reduces_S64x32x49_S64x49 (.inl rfl) rfl) shapeCasts_S64x49_S64x1x49))
    (broadcast S64x1x49 (Scalar.ofBits .f32 0x2B8CBCCC#32))) broadcasts_S64x1x49_S64x32x49)

/-- exp (L − max over the key axis). -/
def expShift (L : FVec Ideal S64x49x49 .f32) : FVec Ideal S64x49x49 .f32 :=
  exp (subf L (broadcastTo S64x49x49 (shapeCast S64x1x49
    (multiReduction .maximumf [1] S64x49 L 0xFF800000#32 reduces_S64x49x49_S64x49 (.inl rfl) rfl) shapeCasts_S64x49_S64x1x49)
    broadcasts_S64x1x49_S64x49x49))

/-- The softmax over the key axis (the middle one). -/
def softmaxKey (L : FVec Ideal S64x49x49 .f32) : FVec Ideal S64x49x49 .f32 :=
  divf (expShift L) (broadcastTo S64x49x49 (shapeCast S64x1x49
    (multiReduction .add [1] S64x49 (expShift L) 0x00000000#32 reduces_S64x49x49_S64x49 (.inl rfl) rfl) shapeCasts_S64x49_S64x1x49)
    broadcasts_S64x1x49_S64x49x49)

/-- A (window, depth, token) value re-grouped as a block. -/
def ungroup (z : FVec Ideal S64x32x49 .f32) : FVec Ideal S1x256x1x7x56 .f32 :=
  shapeCast S1x256x1x7x56 (shapeCast S256x7x56 (transpose S8x32x7x8x7 [0, 2, 3, 1, 4]
    (shapeCast S8x8x32x7x7 z shapeCasts_S64x32x49_S8x8x32x7x7) transposes_S8x8x32x7x7_p0_2_3_1_4_S8x32x7x8x7)
    shapeCasts_S8x32x7x8x7_S256x7x56) shapeCasts_S256x7x56_S1x256x1x7x56

theorem pay2_eq (v : Vec Ideal S1x256x1x7x56 .f32) : k0_pay2 (F := Ideal) v = regroup v := rfl

theorem pay3_eq (q k : Vec Ideal S1x256x1x7x56 .f32) :
    k0_pay3 (F := Ideal) q k
      = matmul dotQK none (normalize (regroup k)) (normalize (regroup q)) (constant S64x49x49 .f32 0x00000000#32) := rfl

theorem pay4_eq (σ : Vec Ideal S64x1x49 .f32) :
    k0_pay4 (F := Ideal) σ
      = broadcastTo S64x49x49 (shapeCast S64x1x49 σ shapeCasts_S64x1x49_S64x1x49) broadcasts_S64x1x49_S64x49x49 := rfl

theorem pay1_eq (v : FVec Ideal S64x32x49 .f32) (L σ : FVec Ideal S64x49x49 .f32) :
    k0_pay1 (F := Ideal) v L σ
      = ungroup (matmul dotAV none v (softmaxKey (mulf L σ)) (constant S64x32x49 .f32 0x00000000#32)) := rfl

/-! ## Each stage at an index -/

/-- The tokens of window B of a block: depth d of token s. -/
def blkTok (x : Vec Ideal S1x256x1x7x56 .f32) (B : Fin 64) (d : Fin 32) (s : Fin 49) : EReal :=
  x (ix5 (0 : Fin 1) (⟨B.val / 8 * 32 + d.val, by omega⟩ : Fin 256) (0 : Fin 1) (⟨s.val / 7, by omega⟩ : Fin 7)
    (⟨B.val % 8 * 7 + s.val % 7, by omega⟩ : Fin 56))

theorem regroup_apply (x : Vec Ideal S1x256x1x7x56 .f32) (B : Fin 64) (d : Fin 32) (s : Fin 49) :
    regroup x (ix3 B d s) = blkTok x B d s :=
  gather_apply x _ _ _ _ B d s

theorem normalize_apply (x : FVec Ideal S64x32x49 .f32) (B : Fin 64) (d : Fin 32) (s : Fin 49) :
    normalize x (ix3 B d s) = unit (fun d s => x (ix3 B d s)) d s := by
  unfold normalize
  rw [divf_apply, bcast_depth_apply, maximumf_apply, broadcast_apply]
  show Ideal.div _ (max (Ideal.sqrt (shapeCast S64x1x49 _ _ (ix3 B (0 : Fin 1) s))) _) = _
  rw [keep_apply, sum_depth_apply]
  rfl

theorem expShift_apply (L : FVec Ideal S64x49x49 .f32) (B : Fin 64) (t s : Fin 49) :
    expShift L (ix3 B t s) = wexp (fun s t => L (ix3 B t s)) s t := by
  unfold expShift
  show Ideal.exp (L (ix3 B t s) - broadcastTo S64x49x49 _ _ (ix3 B t s)) = _
  rw [bcast_key_apply, keep_apply, max_key_apply]
  rfl

theorem softmaxKey_apply (L : FVec Ideal S64x49x49 .f32) (B : Fin 64) (t s : Fin 49) :
    softmaxKey L (ix3 B t s) = attn (fun s t => L (ix3 B t s)) s t := by
  unfold softmaxKey
  rw [divf_apply, bcast_key_apply, keep_apply, sum_key_apply, expShift_apply]
  unfold attn
  exact congrArg (Ideal.div _) (Finset.sum_congr rfl fun t' _ => expShift_apply L B t' s)

theorem ungroup_apply (z : FVec Ideal S64x32x49 .f32) (u u' : Fin 1) (c : Fin 256) (w1 : Fin 7) (x : Fin 56) :
    ungroup z (ix5 u c u' w1 x)
      = z (ix3 (⟨c.val / 32 * 8 + x.val / 7, by omega⟩ : Fin 64) (⟨c.val % 32, by omega⟩ : Fin 32)
          (⟨w1.val * 7 + x.val % 7, by omega⟩ : Fin 49)) :=
  scatter_apply z _ _ _ _ u u' c w1 x

/-! ## The softmax weight of a row depends on that row only -/

theorem attn_congr_row (L L' : Fin 49 → Fin 49 → EReal) (s : Fin 49) (h : ∀ t, L s t = L' s t) (t : Fin 49) :
    attn L s t = attn L' s t := by
  have hrow : (fun t => L s t) = fun t => L' s t := funext h
  have hmax : rowmax L s = rowmax L' s := by unfold rowmax; rw [hrow]
  have hexp : ∀ t, wexp L s t = wexp L' s t := fun t => by unfold wexp; rw [h t, hmax]
  unfold attn
  rw [hexp t, Finset.sum_congr rfl fun t' _ => hexp t']

/-! ## The stored block -/

/-- Entry (·, c, ·, w1, x) of what the body stores: with B = 8 (c / 32) + x / 7 the window, d = c % 32 the depth and
    s = 7 w1 + x % 7 the token, the attention output of window B's tokens of the three loaded blocks, scaled by the
    fourth block's entry (B, ·, s). -/
theorem stored_apply (xq xk xv : Vec Ideal S1x256x1x7x56 .f32) (xσ : Vec Ideal S64x1x49 .f32)
    (u u' : Fin 1) (c : Fin 256) (w1 : Fin 7) (x : Fin 56) :
    k0_pay1 (F := Ideal) (k0_pay2 xv) (k0_pay3 xq xk) (k0_pay4 xσ) (ix5 u c u' w1 x)
      = out (blkTok xq (⟨c.val / 32 * 8 + x.val / 7, by omega⟩ : Fin 64)) (blkTok xk (⟨c.val / 32 * 8 + x.val / 7, by omega⟩ : Fin 64))
          (blkTok xv (⟨c.val / 32 * 8 + x.val / 7, by omega⟩ : Fin 64))
          (xσ (ix3 (⟨c.val / 32 * 8 + x.val / 7, by omega⟩ : Fin 64) (0 : Fin 1) (⟨w1.val * 7 + x.val % 7, by omega⟩ : Fin 49)))
          (⟨c.val % 32, by omega⟩ : Fin 32) (⟨w1.val * 7 + x.val % 7, by omega⟩ : Fin 49) := by
  rw [pay1_eq, pay2_eq, pay3_eq, pay4_eq, ungroup_apply, output_apply]
  refine Eq.trans ?_ (out_comm _ _ _ _ _ _)
  refine Finset.sum_congr rfl fun t _ => ?_
  rw [regroup_apply, softmaxKey_apply]
  refine congrArg (_ * ·) (attn_congr_row _ _ _ (fun t' => ?_) t)
  rw [mulf_apply, logits_apply, bcast_key_apply, same_apply]
  refine Eq.trans ?_ (logit_comm _ _ _ _ _)
  refine congrArg (· * _) (Finset.sum_congr rfl fun d _ => ?_)
  rw [normalize_apply, normalize_apply]
  have hq : (fun d s => regroup xq (ix3 (⟨c.val / 32 * 8 + x.val / 7, by omega⟩ : Fin 64) d s))
      = blkTok xq (⟨c.val / 32 * 8 + x.val / 7, by omega⟩ : Fin 64) := funext fun d => funext fun s => regroup_apply xq _ d s
  have hk : (fun d s => regroup xk (ix3 (⟨c.val / 32 * 8 + x.val / 7, by omega⟩ : Fin 64) d s))
      = blkTok xk (⟨c.val / 32 * 8 + x.val / 7, by omega⟩ : Fin 64) := funext fun d => funext fun s => regroup_apply xk _ d s
  rw [hq, hk]

end Cert.WinAttn.Kernel

end
-- ==== Proof.KBlockSpec.lean ====
/-
  What the body stores at grid point (b, hh), against the specification.

  If the three loaded blocks are strip hh of batch element b of q, k and v, and the fourth is the scale layout, then
  entry (·, c, ·, w1, x) of the stored block is the specified result at (b, c, 7 hh + w1, x): the window of that entry is
  (hh, h = c / 32, ww = x / 7), its depth c % 32 and its token 7 w1 + x % 7.
-/
import proofs.«151083_g88295937671568_pilotgen1_385_6_alg».proof.Proof.KPay

noncomputable section

namespace Cert.WinAttn.Kernel

open Idealize.ShloMosaic Idealize.ShloMosaic.ValueIdx Cert.KernelIdeal Cert.KernelIdeal.Gen Cert.WinAttn

/-- Window 8 (c / 32) + x / 7 of a block that is strip hh of batch b of a tensor holds that tensor's window
    (b, hh, c / 32, x / 7). -/
theorem blkTok_strip (a : Arr) (xa : Vec Ideal S1x256x1x7x56 .f32) (b : Fin 32) (hh : Fin 8)
    (ha : ∀ (ch : Fin 256) (w : Fin 7) (x' : Fin 56),
      xa (ix5 (0 : Fin 1) ch (0 : Fin 1) w x') = a (ix4 b ch (⟨hh.val * 7 + w.val, by omega⟩ : Fin 56) x'))
    (c : Fin 256) (x : Fin 56) :
    blkTok xa (⟨c.val / 32 * 8 + x.val / 7, by omega⟩ : Fin 64)
      = tokens a b hh (⟨c.val / 32, by omega⟩ : Fin 8) (⟨x.val / 7, by omega⟩ : Fin 8) := by
  funext d s
  unfold blkTok tokens
  rw [ha]
  refine congrArg a (congr (congr (congrArg (ix4 b) (Fin.ext ?_)) (Fin.ext ?_)) (Fin.ext ?_))
  · show (c.val / 32 * 8 + x.val / 7) / 8 * 32 + d.val = c.val / 32 * 32 + d.val
    omega
  · show hh.val * 7 + s.val / 7 = hh.val * 7 + s.val / 7
    rfl
  · show (c.val / 32 * 8 + x.val / 7) % 8 * 7 + s.val % 7 = x.val / 7 * 7 + s.val % 7
    omega

theorem block_eq (q k v : Arr) (ls : Scl) (xq xk xv : Vec Ideal S1x256x1x7x56 .f32) (xσ : Vec Ideal S64x1x49 .f32)
    (b : Fin 32) (hh : Fin 8)
    (hq : ∀ (ch : Fin 256) (w : Fin 7) (x' : Fin 56),
      xq (ix5 (0 : Fin 1) ch (0 : Fin 1) w x') = q (ix4 b ch (⟨hh.val * 7 + w.val, by omega⟩ : Fin 56) x'))
    (hk : ∀ (ch : Fin 256) (w : Fin 7) (x' : Fin 56),
      xk (ix5 (0 : Fin 1) ch (0 : Fin 1) w x') = k (ix4 b ch (⟨hh.val * 7 + w.val, by omega⟩ : Fin 56) x'))
    (hv : ∀ (ch : Fin 256) (w : Fin 7) (x' : Fin 56),
      xv (ix5 (0 : Fin 1) ch (0 : Fin 1) w x') = v (ix4 b ch (⟨hh.val * 7 + w.val, by omega⟩ : Fin 56) x'))
    (hσ : ∀ (B : Fin 64) (s : Fin 49), xσ (ix3 B (0 : Fin 1) s) = scale ls (⟨B.val / 8, by omega⟩ : Fin 8))
    (u u' : Fin 1) (c : Fin 256) (w1 : Fin 7) (x : Fin 56) :
    k0_pay1 (F := Ideal) (k0_pay2 xv) (k0_pay3 xq xk) (k0_pay4 xσ) (ix5 u c u' w1 x)
      = result q k v ls b c (⟨hh.val * 7 + w1.val, by omega⟩ : Fin 56) x := by
  rw [stored_apply, blkTok_strip q xq b hh hq, blkTok_strip k xk b hh hk, blkTok_strip v xv b hh hv, hσ]
  unfold result
  have e1 : (⟨(hh.val * 7 + w1.val) / 7, by omega⟩ : Fin 8) = hh := Fin.ext (by show (hh.val * 7 + w1.val) / 7 = hh.val; omega)
  have e2 : (⟨(c.val / 32 * 8 + x.val / 7) / 8, by omega⟩ : Fin 8) = (⟨c.val / 32, by omega⟩ : Fin 8) :=
    Fin.ext (by show (c.val / 32 * 8 + x.val / 7) / 8 = c.val / 32; omega)
  have e3 : (⟨w1.val * 7 + x.val % 7, by omega⟩ : Fin 49) = (⟨(hh.val * 7 + w1.val) % 7 * 7 + x.val % 7, by omega⟩ : Fin 49) :=
    Fin.ext (by show w1.val * 7 + x.val % 7 = (hh.val * 7 + w1.val) % 7 * 7 + x.val % 7; omega)
  rw [e2, e3]
  simp only [e1]

end Cert.WinAttn.Kernel

end
-- ==== Proof.KHost.lean ====
/-
  The host operations around the kernel launch, read at an index: the three inputs are re-shaped
  [32, 256, 56, 56] → [32, 256, 8, 7, 56] (a row 7 hh + w1 becomes the pair (hh, w1)), the per-head scale
  exp (min (logit_scale, c)) is laid out as [64, 1, 49] (window 8 h + ww reads head h, every token the same), and the
  kernel's result is re-shaped back to [32, 256, 56, 56].
-/
import proofs.«151083_g88295937671568_pilotgen1_385_6_alg».proof.Proof.Gen.KernelIdeal
import proofs.«151083_g88295937671568_pilotgen1_385_6_alg».proof.Proof.Spec
import Idealize.ShloMosaic.Lib.Pipeline.Value
import Idealize.ShloMosaic.Lib.ValueIdx

noncomputable section

namespace Cert.WinAttn.Kernel

open Idealize.ShloMosaic Idealize.ShloMosaic.ValueIdx Cert.KernelIdeal Cert.WinAttn

variable {α : Type}

/-- The strip form of an input: entry (b, c, hh, w1, x) is the input's entry (b, c, 7 hh + w1, x). -/
theorem strips_apply (q : S32x256x56x56.Idx → α) (h : S32x256x56x56.ShapeCasts S32x256x8x7x56)
    (b : Fin 32) (c : Fin 256) (hh : Fin 8) (w1 : Fin 7) (x : Fin 56) :
    shapeCast S32x256x8x7x56 q h (ix5 b c hh w1 x) = q (ix4 b c (⟨hh.val * 7 + w1.val, by omega⟩ : Fin 56) x) :=
  shapeCast_apply q h _ _ (by
    rw [Shape.rowMajor_val_four, Shape.rowMajor_val_five]
    show ((b.val * 256 + c.val) * 56 + (hh.val * 7 + w1.val)) * 56 + x.val = (((b.val * 256 + c.val) * 8 + hh.val) * 7 + w1.val) * 56 + x.val
    omega)

/-- Back from the strip form: entry (b, c, y, x) is the strip form's entry (b, c, y / 7, y % 7, x). -/
theorem unstrips_apply (z : S32x256x8x7x56.Idx → α) (h : S32x256x8x7x56.ShapeCasts S32x256x56x56)
    (b : Fin 32) (c : Fin 256) (y x : Fin 56) :
    shapeCast S32x256x56x56 z h (ix4 b c y x) = z (ix5 b c (⟨y.val / 7, by omega⟩ : Fin 8) (⟨y.val % 7, by omega⟩ : Fin 7) x) :=
  shapeCast_apply z h _ _ (by
    rw [Shape.rowMajor_val_five, Shape.rowMajor_val_four]
    show (((b.val * 256 + c.val) * 8 + y.val / 7) * 7 + y.val % 7) * 56 + x.val = ((b.val * 256 + c.val) * 56 + y.val) * 56 + x.val
    omega)

/-- The scale operand: entry (B, ·, s) is σ of head B / 8. -/
theorem scaleArr_apply (ls : FVec Ideal S8x1x1 .f32)
    (h1 : S_.BroadcastsInDim S8x1x1 (![] : Fin 0 → Fin S8x1x1.rank)) (h2 : S8x1x1.ShapeCasts S8x1x1x1)
    (h3 : S8x1x1x1.BroadcastsInDim S8x8x1x49 (![0, 1, 2, 3] : Fin 4 → Fin S8x8x1x49.rank)) (h4 : S8x8x1x49.ShapeCasts S64x1x49)
    (B : Fin 64) (u : Fin 1) (s : Fin 49) :
    shapeCast S64x1x49 (broadcastInDim S8x8x1x49 ![0, 1, 2, 3] h3 (shapeCast S8x1x1x1
      (Host.exp (F := Ideal) (minimumf ls (broadcastInDim S8x1x1 ![] h1 (constant (F := Ideal) S_ .f32 0x40935DCC#32)))) h2)) h4 (ix3 B u s)
      = scale ls (⟨B.val / 8, by omega⟩ : Fin 8) := by
  have hu : u.val = 0 := by omega
  refine (shapeCast_apply _ h4 _ (ix4 (⟨B.val / 8, by omega⟩ : Fin 8) (⟨B.val % 8, by omega⟩ : Fin 8) (0 : Fin 1) s) ?_).trans ?_
  · rw [Shape.rowMajor_val_four, Shape.rowMajor_val_three]
    show ((B.val / 8 * 8 + B.val % 8) * 1 + 0) * 49 + s.val = (B.val * 1 + u.val) * 49 + s.val
    rw [hu]; omega
  refine (broadcastInDim_apply _ h3 _ _ (ix4 (⟨B.val / 8, by omega⟩ : Fin 8) (0 : Fin 1) (0 : Fin 1) (0 : Fin 1))
    (fun a => match a with | ⟨0, _⟩ => rfl | ⟨1, _⟩ => rfl | ⟨2, _⟩ => rfl | ⟨3, _⟩ => rfl)).trans ?_
  refine (shapeCast_apply _ h2 _ (ix3 (⟨B.val / 8, by omega⟩ : Fin 8) (0 : Fin 1) (0 : Fin 1)) ?_).trans ?_
  · rw [Shape.rowMajor_val_three, Shape.rowMajor_val_four]
    show (B.val / 8 * 1 + 0) * 1 + 0 = ((B.val / 8 * 1 + 0) * 1 + 0) * 1 + 0
    omega
  show Ideal.exp (min (ls _) (broadcastInDim S8x1x1 ![] h1 (constant (F := Ideal) S_ .f32 0x40935DCC#32) _)) = _
  rw [broadcastInDim_apply _ h1 _ _ ix0 (fun a => a.elim0)]
  rfl

end Cert.WinAttn.Kernel

end
-- ==== Proof.KBlocks.lean ====
/-
  From blocks to the array, and through the host operations around the launch.

  Grid point t = 8 b + hh handles strip hh of batch element b: every window's block index is (b, 0, hh, 0, 0) (the
  scale's is (0, 0, 0)).  The three input arrays the launch reads are the strip forms of the arguments, so the loaded
  blocks are strips of the arguments and the stored block is the specified result on that strip; the 256 strips
  tile the output, whose final contents are therefore the strip form of the specified result, and the closing
  re-shape makes it the specified result.
-/
import proofs.«151083_g88295937671568_pilotgen1_385_6_alg».proof.Proof.Gen.KernelIdeal.Frame
import proofs.«151083_g88295937671568_pilotgen1_385_6_alg».proof.Proof.KBlockSpec
import proofs.«151083_g88295937671568_pilotgen1_385_6_alg».proof.Proof.KHost
import Idealize.ShloMosaic.Lib.Pipeline.Value
import Idealize.ShloMosaic.Lib.StableHlo.Run
import Idealize.ShloMosaic.Lib.Tactic

noncomputable section

namespace Cert.WinAttn.Kernel

open Idealize.ShloMosaic Idealize.ShloMosaic.TcCoe Idealize.SL.Sem Idealize.ShloMosaic.ValueIdx
open Idealize.ShloMosaic.Pipeline (Dat)
open Cert.KernelIdeal Cert.KernelIdeal.Gen Cert.WinAttn

variable (m : (ℓ : Loc nD τ sig) → Buf (Elt Ideal) ℓ) (ρ : Dev nD → PrngReg)

/-! ## The grid -/

/-- The batch element and the strip of grid point t = 8 b + hh. -/
def ptB (t : Fin cfg0.N) : Fin 32 := ⟨t.val / 8 % 32, Nat.mod_lt _ (by decide)⟩
def ptH (t : Fin cfg0.N) : Fin 8 := ⟨t.val % 8, Nat.mod_lt _ (by decide)⟩

/-- The printed index maps, decided over the 256 points. -/
theorem idx_facts : ∀ t : Fin cfg0.N,
    (win0_0.index t (0 : Fin 5) = (ptB t).val ∧ win0_0.index t (1 : Fin 5) = 0 ∧ win0_0.index t (2 : Fin 5) = (ptH t).val
      ∧ win0_0.index t (3 : Fin 5) = 0 ∧ win0_0.index t (4 : Fin 5) = 0)
    ∧ (win0_1.index t (0 : Fin 5) = (ptB t).val ∧ win0_1.index t (1 : Fin 5) = 0 ∧ win0_1.index t (2 : Fin 5) = (ptH t).val
      ∧ win0_1.index t (3 : Fin 5) = 0 ∧ win0_1.index t (4 : Fin 5) = 0)
    ∧ (win0_2.index t (0 : Fin 5) = (ptB t).val ∧ win0_2.index t (1 : Fin 5) = 0 ∧ win0_2.index t (2 : Fin 5) = (ptH t).val
      ∧ win0_2.index t (3 : Fin 5) = 0 ∧ win0_2.index t (4 : Fin 5) = 0)
    ∧ (win0_3.index t (0 : Fin 3) = 0 ∧ win0_3.index t (1 : Fin 3) = 0 ∧ win0_3.index t (2 : Fin 3) = 0)
    ∧ (win0_4.index t (0 : Fin 5) = (ptB t).val ∧ win0_4.index t (1 : Fin 5) = 0 ∧ win0_4.index t (2 : Fin 5) = (ptH t).val
      ∧ win0_4.index t (3 : Fin 5) = 0 ∧ win0_4.index t (4 : Fin 5) = 0) :=
  (by decide +kernel : ∀ t : Fin grid0.N, _)

/-! ## The arrays the launch reads -/

theorem V_q (c : Dev nD) : (V m c main_v6 : S32x256x8x7x56.Idx → EReal)
    = shapeCast S32x256x8x7x56 (m ((c : Thread nD τ).loc main_arg0)) shapeCasts_S32x256x56x56_S32x256x8x7x56 := by
  show StableHlo.after hostOps0 (fun b => m (c, b)) (Proc.devRef .tc main_v6) = _
  after_results
  rfl

theorem V_k (c : Dev nD) : (V m c main_v7 : S32x256x8x7x56.Idx → EReal)
    = shapeCast S32x256x8x7x56 (m ((c : Thread nD τ).loc main_arg1)) shapeCasts_S32x256x56x56_S32x256x8x7x56 := by
  show StableHlo.after hostOps0 (fun b => m (c, b)) (Proc.devRef .tc main_v7) = _
  after_results
  rfl

theorem V_v (c : Dev nD) : (V m c main_v8 : S32x256x8x7x56.Idx → EReal)
    = shapeCast S32x256x8x7x56 (m ((c : Thread nD τ).loc main_arg2)) shapeCasts_S32x256x56x56_S32x256x8x7x56 := by
  show StableHlo.after hostOps0 (fun b => m (c, b)) (Proc.devRef .tc main_v8) = _
  after_results
  rfl

theorem V_σ (c : Dev nD) : (V m c main_v5 : S64x1x49.Idx → EReal)
    = shapeCast S64x1x49 (broadcastInDim S8x8x1x49 ![0, 1, 2, 3] bcast_S8x1x1x1_S8x8x1x49_0_1_2_3 (shapeCast S8x1x1x1
      (Host.exp (F := Ideal) (minimumf (m ((c : Thread nD τ).loc main_arg3))
        (broadcastInDim S8x1x1 ![] bcast_S_S8x1x1 (constant (F := Ideal) S_ .f32 0x40935DCC#32))))
      shapeCasts_S8x1x1_S8x1x1x1)) shapeCasts_S8x8x1x49_S64x1x49 := by
  show StableHlo.after hostOps0 (fun b => m (c, b)) (Proc.devRef .tc main_v5) = _
  after_results
  rfl

/-! ## The loaded blocks are strips of the arguments -/

theorem iblk_q (c : Dev nD) (t : Fin cfg0.N) (ch : Fin 256) (w : Fin 7) (x' : Fin 56) :
    (iblk m c 0 t : Vec Ideal S1x256x1x7x56 .f32) (ix5 (0 : Fin 1) ch (0 : Fin 1) w x')
      = (m ((c : Thread nD τ).loc main_arg0) : Arr) (ix4 (ptB t) ch (⟨(ptH t).val * 7 + w.val, by omega⟩ : Fin 56) x') := by
  obtain ⟨⟨e0, e1, e2, e3, e4⟩, -⟩ := idx_facts t
  unfold iblk
  rw [View.read_apply]
  show V m c main_v6 _ = _
  rw [V_q]
  refine (congrArg _ ?_).trans (strips_apply _ _ (ptB t) ch (ptH t) w x')
  funext a
  apply Fin.ext
  match a with
  | ⟨0, _⟩ => show win0_0.index t (0 : Fin 5) * 1 + 1 * 0 = (ptB t).val; omega
  | ⟨1, _⟩ => show win0_0.index t (1 : Fin 5) * 256 + 1 * ch.val = ch.val; omega
  | ⟨2, _⟩ => show win0_0.index t (2 : Fin 5) * 1 + 1 * 0 = (ptH t).val; omega
  | ⟨3, _⟩ => show win0_0.index t (3 : Fin 5) * 7 + 1 * w.val = w.val; omega
  | ⟨4, _⟩ => show win0_0.index t (4 : Fin 5) * 56 + 1 * x'.val = x'.val; omega

theorem iblk_k (c : Dev nD) (t : Fin cfg0.N) (ch : Fin 256) (w : Fin 7) (x' : Fin 56) :
    (iblk m c 1 t : Vec Ideal S1x256x1x7x56 .f32) (ix5 (0 : Fin 1) ch (0 : Fin 1) w x')
      = (m ((c : Thread nD τ).loc main_arg1) : Arr) (ix4 (ptB t) ch (⟨(ptH t).val * 7 + w.val, by omega⟩ : Fin 56) x') := by
  obtain ⟨-, ⟨e0, e1, e2, e3, e4⟩, -⟩ := idx_facts t
  unfold iblk
  rw [View.read_apply]
  show V m c main_v7 _ = _
  rw [V_k]
  refine (congrArg _ ?_).trans (strips_apply _ _ (ptB t) ch (ptH t) w x')
  funext a
  apply Fin.ext
  match a with
  | ⟨0, _⟩ => show win0_1.index t (0 : Fin 5) * 1 + 1 * 0 = (ptB t).val; omega
  | ⟨1, _⟩ => show win0_1.index t (1 : Fin 5) * 256 + 1 * ch.val = ch.val; omega
  | ⟨2, _⟩ => show win0_1.index t (2 : Fin 5) * 1 + 1 * 0 = (ptH t).val; omega
  | ⟨3, _⟩ => show win0_1.index t (3 : Fin 5) * 7 + 1 * w.val = w.val; omega
  | ⟨4, _⟩ => show win0_1.index t (4 : Fin 5) * 56 + 1 * x'.val = x'.val; omega

theorem iblk_v (c : Dev nD) (t : Fin cfg0.N) (ch : Fin 256) (w : Fin 7) (x' : Fin 56) :
    (iblk m c 2 t : Vec Ideal S1x256x1x7x56 .f32) (ix5 (0 : Fin 1) ch (0 : Fin 1) w x')
      = (m ((c : Thread nD τ).loc main_arg2) : Arr) (ix4 (ptB t) ch (⟨(ptH t).val * 7 + w.val, by omega⟩ : Fin 56) x') := by
  obtain ⟨-, -, ⟨e0, e1, e2, e3, e4⟩, -⟩ := idx_facts t
  unfold iblk
  rw [View.read_apply]
  show V m c main_v8 _ = _
  rw [V_v]
  refine (congrArg _ ?_).trans (strips_apply _ _ (ptB t) ch (ptH t) w x')
  funext a
  apply Fin.ext
  match a with
  | ⟨0, _⟩ => show win0_2.index t (0 : Fin 5) * 1 + 1 * 0 = (ptB t).val; omega
  | ⟨1, _⟩ => show win0_2.index t (1 : Fin 5) * 256 + 1 * ch.val = ch.val; omega
  | ⟨2, _⟩ => show win0_2.index t (2 : Fin 5) * 1 + 1 * 0 = (ptH t).val; omega
  | ⟨3, _⟩ => show win0_2.index t (3 : Fin 5) * 7 + 1 * w.val = w.val; omega
  | ⟨4, _⟩ => show win0_2.index t (4 : Fin 5) * 56 + 1 * x'.val = x'.val; omega

theorem iblk_σ (c : Dev nD) (t : Fin cfg0.N) (B : Fin 64) (s : Fin 49) :
    (iblk m c 3 t : Vec Ideal S64x1x49 .f32) (ix3 B (0 : Fin 1) s)
      = scale (m ((c : Thread nD τ).loc main_arg3) : Scl) (⟨B.val / 8, by omega⟩ : Fin 8) := by
  obtain ⟨-, -, -, ⟨e0, e1, e2⟩, -⟩ := idx_facts t
  unfold iblk
  rw [View.read_apply]
  show V m c main_v5 _ = _
  rw [V_σ]
  refine (congrArg _ ?_).trans (scaleArr_apply _ _ _ _ _ B (0 : Fin 1) s)
  funext a
  apply Fin.ext
  match a with
  | ⟨0, _⟩ => show win0_3.index t (0 : Fin 3) * 64 + 1 * B.val = B.val; omega
  | ⟨1, _⟩ => show win0_3.index t (1 : Fin 3) * 1 + 1 * 0 = 0; omega
  | ⟨2, _⟩ => show win0_3.index t (2 : Fin 3) * 49 + 1 * s.val = s.val; omega

/-! ## What a point writes back -/

theorem hz5 : (![0, 0, 0, 0, 0] : Fin 5 → Nat) = fun _ => 0 := funext fun a => by fin_cases a <;> rfl
theorem hz3 : (![0, 0, 0] : Fin 3 → Nat) = fun _ => 0 := funext fun a => by fin_cases a <;> rfl

/-- Row 7 hh + w1 of the tensor. -/
def stripRow (hh : Fin 8) (w1 : Fin 7) : Fin 56 := ⟨hh.val * 7 + w1.val, by omega⟩

/-- The specified result in strip form: [32, 256, 8, 7, 56]. -/
def Gs (q k v : Arr) (ls : Scl) : S32x256x8x7x56.Idx → EReal := fun i =>
  result q k v ls (i 0) (i 1) (stripRow (i 2) (i 3)) (i 4)

/-- WHAT POINT t WRITES BACK is block t of the strip form of the specified result. -/
theorem flushed_eq (c : Dev nD) (t : Fin cfg0.N) :
    (dats m 0 c).flushed 4 t = ((cfg0.win 4).blk t).view.read (Elt Ideal)
      (Gs (m ((c : Thread nD τ).loc main_arg0)) (m ((c : Thread nD τ).loc main_arg1)) (m ((c : Thread nD τ).loc main_arg2))
        (m ((c : Thread nD τ).loc main_arg3))) := by
  show (cfg0.win 4).cut (grid0.coords t) ((dats m 0 c).after 4 t) = _
  rw [after0_4]
  unfold out0_4
  rw [View.canon_unit_zero hz5]
  simp only [View.ld_unit_zero (S := S1x256x1x7x56) hz5, View.ld_unit_zero (S := S64x1x49) hz3]
  obtain ⟨-, -, -, -, ⟨e0, e1, e2, e3, e4⟩⟩ := idx_facts t
  funext j
  have hj0 : (j 0).val < 1 := (j 0).isLt
  have hj2 : (j 2).val < 1 := (j 2).isLt
  have hemb : ((cfg0.win 4).blk t).view.emb j = ix5 (ptB t) (j 1 : Fin 256) (ptH t) (j 3 : Fin 7) (j 4 : Fin 56) := by
    funext a
    apply Fin.ext
    match a with
    | ⟨0, _⟩ => show win0_4.index t (0 : Fin 5) * 1 + 1 * (j 0).val = (ptB t).val; omega
    | ⟨1, _⟩ => show win0_4.index t (1 : Fin 5) * 256 + 1 * (j 1).val = (j 1).val; omega
    | ⟨2, _⟩ => show win0_4.index t (2 : Fin 5) * 1 + 1 * (j 2).val = (ptH t).val; omega
    | ⟨3, _⟩ => show win0_4.index t (3 : Fin 5) * 7 + 1 * (j 3).val = (j 3).val; omega
    | ⟨4, _⟩ => show win0_4.index t (4 : Fin 5) * 56 + 1 * (j 4).val = (j 4).val; omega
  show k0_pay1 (F := Ideal) (k0_pay2 (iblk m c 2 t)) (k0_pay3 (iblk m c 0 t) (iblk m c 1 t)) (k0_pay4 (iblk m c 3 t)) j
    = Gs _ _ _ _ (((cfg0.win 4).blk t).view.emb j)
  rw [hemb]
  refine (congrArg (k0_pay1 (F := Ideal) (k0_pay2 (iblk m c 2 t)) (k0_pay3 (iblk m c 0 t) (iblk m c 1 t)) (k0_pay4 (iblk m c 3 t)))
    (eq_ix5 j)).trans ?_
  exact block_eq _ _ _ _ (iblk m c 0 t) (iblk m c 1 t) (iblk m c 2 t) (iblk m c 3 t) (ptB t) (ptH t)
    (iblk_q m c t) (iblk_k m c t) (iblk_v m c t) (iblk_σ m c t) (j 0) (j 2) (j 1) (j 3) (j 4)

/-! ## The strips tile the output -/

/-- An index of the output is in point t's block iff each coordinate is in the block's range on its axis. -/
theorem mem_blk (t : Fin cfg0.N) (i : S32x256x8x7x56.Idx) :
    i ∈ ((cfg0.win 4).blk t).view.set ↔ ∀ a : Fin 5, win0_4.index t a * S1x256x1x7x56.size a ≤ (i a).val
      ∧ (i a).val < win0_4.index t a * S1x256x1x7x56.size a + S1x256x1x7x56.size a := by
  show i ∈ ((View.whole main_v9).slice (win0_4.rect t)).set ↔ _
  rw [View.set_slice_whole, Rect.mem_set_unit]
  exact Iff.rfl

/-- Every index (b, c, hh, w1, x) of the output lies in the block of point 8 b + hh. -/
theorem cover (i : S32x256x8x7x56.Idx) :
    ∃ t : Fin cfg0.N, (cfg0.win 4).flush t = true ∧ i ∈ ((cfg0.win 4).blk t).view.set := by
  have hN : cfg0.N = 256 := N_0
  have h0 : (i 0).val < 32 := (i 0).isLt
  have h1 : (i 1).val < 256 := (i 1).isLt
  have h2 : (i 2).val < 8 := (i 2).isLt
  have h3 : (i 3).val < 7 := (i 3).isLt
  have h4 : (i 4).val < 56 := (i 4).isLt
  have ht : (i 0).val * 8 + (i 2).val < cfg0.N := by rw [hN]; omega
  refine ⟨⟨(i 0).val * 8 + (i 2).val, ht⟩, flush0_4 _, ?_⟩
  rw [mem_blk]
  obtain ⟨-, -, -, -, ⟨e0, e1, e2, e3, e4⟩⟩ := idx_facts ⟨(i 0).val * 8 + (i 2).val, ht⟩
  have eB : (ptB ⟨(i 0).val * 8 + (i 2).val, ht⟩).val = (i 0).val := by
    show ((i 0).val * 8 + (i 2).val) / 8 % 32 = (i 0).val
    omega
  have eH : (ptH ⟨(i 0).val * 8 + (i 2).val, ht⟩).val = (i 2).val := by
    show ((i 0).val * 8 + (i 2).val) % 8 = (i 2).val
    omega
  intro a
  match a with
  | ⟨0, _⟩ =>
    show win0_4.index _ (0 : Fin 5) * 1 ≤ (i 0).val ∧ (i 0).val < win0_4.index _ (0 : Fin 5) * 1 + 1
    rw [e0, eB]; omega
  | ⟨1, _⟩ =>
    show win0_4.index _ (1 : Fin 5) * 256 ≤ (i 1).val ∧ (i 1).val < win0_4.index _ (1 : Fin 5) * 256 + 256
    rw [e1]; omega
  | ⟨2, _⟩ =>
    show win0_4.index _ (2 : Fin 5) * 1 ≤ (i 2).val ∧ (i 2).val < win0_4.index _ (2 : Fin 5) * 1 + 1
    rw [e2, eH]; omega
  | ⟨3, _⟩ =>
    show win0_4.index _ (3 : Fin 5) * 7 ≤ (i 3).val ∧ (i 3).val < win0_4.index _ (3 : Fin 5) * 7 + 7
    rw [e3]; omega
  | ⟨4, _⟩ =>
    show win0_4.index _ (4 : Fin 5) * 56 ≤ (i 4).val ∧ (i 4).val < win0_4.index _ (4 : Fin 5) * 56 + 56
    rw [e4]; omega

/-- THE OUTPUT ARRAY after the launch is the strip form of the specified result. -/
theorem final (c : Dev nD) : (dats m 0 c).arrAt 4 cfg0.N
    = Gs (m ((c : Thread nD τ).loc main_arg0)) (m ((c : Thread nD τ).loc main_arg1)) (m ((c : Thread nD τ).loc main_arg2))
        (m ((c : Thread nD τ).loc main_arg3)) :=
  (dats m 0 c).arrAt_eq_of_cover 4 _ (fun t _ => flushed_eq m c t) cover

/-! ## The closing re-shape, and the run -/

/-- The strip form re-shaped to [32, 256, 56, 56] is the specified result. -/
theorem unstrips_Gs (q k v : Arr) (ls : Scl) (h : S32x256x8x7x56.ShapeCasts S32x256x56x56) :
    shapeCast S32x256x56x56 (Gs q k v ls) h = G q k v ls := by
  funext i
  obtain ⟨b, c, y, x, rfl⟩ : ∃ (b : Fin 32) (c : Fin 256) (y x : Fin 56), i = ix4 b c y x := ⟨i 0, i 1, i 2, i 3, eq_ix4 i⟩
  rw [unstrips_apply]
  show result q k v ls b c (stripRow (⟨y.val / 7, by omega⟩ : Fin 8) (⟨y.val % 7, by omega⟩ : Fin 7)) x = result q k v ls b c y x
  have e : stripRow (⟨y.val / 7, by omega⟩ : Fin 8) (⟨y.val % 7, by omega⟩ : Fin 7) = y :=
    Fin.ext (by show y.val / 7 * 7 + y.val % 7 = y.val; omega)
  rw [e]

/-- What the host operation after the launch leaves in the result buffer: the specified result. -/
theorem tail_eq (c : Dev nD) :
    Pipeline.afterTail₀ cfgs (dats m) 0 (V0 m) [hostOps1] c main_v10
      = G (m ((c : Thread nD τ).loc main_arg0)) (m ((c : Thread nD τ).loc main_arg1)) (m ((c : Thread nD τ).loc main_arg2))
        (m ((c : Thread nD τ).loc main_arg3)) := by
  unfold Pipeline.afterTail₀
  show StableHlo.after hostOps1 _ (Proc.devRef .tc main_v10) = _
  after_results
  refine Eq.trans ?_ (unstrips_Gs _ _ _ _ shapeCasts_S32x256x8x7x56_S32x256x56x56)
  have hw : Pipeline.withArrays (cfgs 0).spec c (V0 m c) (fun w => (dats m 0 c).arrAt w (cfgs 0).N) (Proc.devRef .tc main_v9)
      = Gs (m ((c : Thread nD τ).loc main_arg0)) (m ((c : Thread nD τ).loc main_arg1)) (m ((c : Thread nD τ).loc main_arg2))
          (m ((c : Thread nD τ).loc main_arg3)) :=
    (Pipeline.withArrays_arr spec0 launch0.win.arr_inj c _ _ 4).trans (final m c)
  funext i
  show shapeCast S32x256x56x56 (Pipeline.withArrays (cfgs 0).spec c (V0 m c) (fun w => (dats m 0 c).arrAt w (cfgs 0).N)
    (Proc.devRef .tc main_v9)) shapeCasts_S32x256x8x7x56_S32x256x56x56 i = _
  rw [hw]

/-- THE RUN of the idealized kernel program, read: the result buffer ends at the specified result of the arguments,
    the arguments unchanged. -/
theorem run : θ_run defs (onTc (τ := τ) (main (F := Ideal))) ⟨m, fun _ => 0, ρ⟩ fun r => ∀ c : Dev nD,
      r.2.mem ((c.tc : Thread nD τ).loc main_v10)
        = G (m ((c.tc : Thread nD τ).loc main_arg0)) (m ((c.tc : Thread nD τ).loc main_arg1)) (m ((c.tc : Thread nD τ).loc main_arg2))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v10 (Pipeline.mem_restRefs_of main_v10 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.WinAttn.Kernel

end
-- ==== Proof.LibRank7.lean ====
/-
  RANK-7 INDICES BY COORDINATES. `Shape.rowMajor_val_seven` spells the row-major position of a rank-7 index as one
  nested sum of products: rank 7 of `Shape.rowMajor_val_one` … `Shape.rowMajor_val_five`. `ix7` builds a rank-7
  index from its seven coordinates and `eq_ix7` says every rank-7 index is of that form. `rowMajor_ix4`, `rowMajor_ix5`
  and `rowMajor_ix7` are the positions of `ix4`, `ix5` and `ix7` of given coordinates, over the coordinates' own extents.
-/
import Idealize.ShloMosaic.Lib.ValueIdx

namespace Idealize.ShloMosaic

/-- Rank 7: the row-major position as one sum of products. -/
theorem Shape.rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6
          + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

namespace ValueIdx

/-- A rank-7 index from its coordinates. -/
abbrev ix7 {n0 n1 n2 n3 n4 n5 n6 : Nat} (a : Fin n0) (b : Fin n1) (c : Fin n2) (d : Fin n3) (e : Fin n4) (f : Fin n5)
    (g : Fin n6) : (⟨7, ![n0, n1, n2, n3, n4, n5, n6]⟩ : Shape).Idx :=
  fun h => match h with
    | ⟨0, _⟩ => a | ⟨1, _⟩ => b | ⟨2, _⟩ => c | ⟨3, _⟩ => d | ⟨4, _⟩ => e | ⟨5, _⟩ => f | ⟨6, _⟩ => g
/-- Every rank-7 index is `ix7` of its coordinates. -/
theorem eq_ix7 {n0 n1 n2 n3 n4 n5 n6 : Nat} (j : (⟨7, ![n0, n1, n2, n3, n4, n5, n6]⟩ : Shape).Idx) :
    j = ix7 (j 0) (j 1) (j 2) (j 3) (j 4) (j 5) (j 6) := by
  funext a
  match a with
  | ⟨0, _⟩ => rfl | ⟨1, _⟩ => rfl | ⟨2, _⟩ => rfl | ⟨3, _⟩ => rfl | ⟨4, _⟩ => rfl | ⟨5, _⟩ => rfl | ⟨6, _⟩ => rfl

/-- The row-major position of `ix7` of seven coordinates. -/
theorem rowMajor_ix7 {n0 n1 n2 n3 n4 n5 n6 : Nat} (a : Fin n0) (b : Fin n1) (c : Fin n2) (d : Fin n3) (e : Fin n4) (f : Fin n5)
    (g : Fin n6) :
    ((⟨7, ![n0, n1, n2, n3, n4, n5, n6]⟩ : Shape).rowMajor (ix7 a b c d e f g)).val
      = (((((a.val * n1 + b.val) * n2 + c.val) * n3 + d.val) * n4 + e.val) * n5 + f.val) * n6 + g.val :=
  Shape.rowMajor_val_seven _

/-- The row-major position of `ix5` of five coordinates. -/
theorem rowMajor_ix5 {n0 n1 n2 n3 n4 : Nat} (a : Fin n0) (b : Fin n1) (c : Fin n2) (d : Fin n3) (e : Fin n4) :
    ((⟨5, ![n0, n1, n2, n3, n4]⟩ : Shape).rowMajor (ix5 a b c d e)).val
      = (((a.val * n1 + b.val) * n2 + c.val) * n3 + d.val) * n4 + e.val :=
  Shape.rowMajor_val_five _

/-- The row-major position of `ix4` of four coordinates. -/
theorem rowMajor_ix4 {n0 n1 n2 n3 : Nat} (a : Fin n0) (b : Fin n1) (c : Fin n2) (d : Fin n3) :
    ((⟨4, ![n0, n1, n2, n3]⟩ : Shape).rowMajor (ix4 a b c d)).val = ((a.val * n1 + b.val) * n2 + c.val) * n3 + d.val :=
  Shape.rowMajor_val_four _

end ValueIdx

end Idealize.ShloMosaic
-- ==== Proof.RefGather.lean ====
/-
  The two layout changes of the reference, read at an index.

  Into windows: a tensor x[b, c, y, xx] is reshaped to rank 7 (b, h, d, hh, w1, ww, w2), with c = 32 h + d,
  y = 7 hh + w1, xx = 7 ww + w2, transposed to (b, hh, ww, h, w1, w2, d) and reshaped to rank 5
  (b, W = 8 hh + ww, h, s = 7 w1 + w2, d).  So the rank-5 tensor at (b, 8 hh + ww, h, s, d) is
  x[b, 32 h + d, 7 hh + s / 7, 7 ww + s % 7].

  Out of windows: the inverse, rank 5 → (b, hh, ww, h, w1, w2, d) → (b, h, d, hh, w1, ww, w2) → [b, c, y, xx]: the result
  at (b, c, y, xx) is the rank-5 tensor at (b, 8 (y / 7) + xx / 7, c / 32, 7 (y % 7) + xx % 7, c % 32).

  A reshape keeps the row-major position, so each reshape step is one linear identity between two positions.
-/
import proofs.«151083_g88295937671568_pilotgen1_385_6_alg».proof.Proof.Gen.ReferenceIdeal.Read
import proofs.«151083_g88295937671568_pilotgen1_385_6_alg».proof.Proof.Spec
import proofs.«151083_g88295937671568_pilotgen1_385_6_alg».proof.Proof.LibRank7

noncomputable section

namespace Cert.WinAttn.Ref

open Cert.ReferenceIdeal Cert.ReferenceIdeal.Gen Cert.ReferenceIdeal.Read Idealize.ShloMosaic Idealize.ShloMosaic.ValueIdx Cert.WinAttn

/-- The window number of strip hh and window column ww. -/
abbrev win (hh ww : Fin 8) : Fin 64 := ⟨hh.val * 8 + ww.val, by omega⟩

/-- INTO WINDOWS, at (b, 8 hh + ww, h, s, d). -/
theorem toWindows_apply {α : Type} (x : S32x256x56x56.Idx → α)
    (h1 : S32x256x56x56.ShapeCasts S32x8x32x8x7x8x7)
    (h2 : S32x8x32x8x7x8x7.Transposes [0, 3, 5, 1, 4, 6, 2] S32x8x8x8x7x7x32)
    (h3 : S32x8x8x8x7x7x32.ShapeCasts S32x64x8x49x32)
    (b : Fin 32) (hh h ww : Fin 8) (s : Fin 49) (d : Fin 32) :
    shapeCast S32x64x8x49x32 (transpose S32x8x8x8x7x7x32 [0, 3, 5, 1, 4, 6, 2] (shapeCast S32x8x32x8x7x8x7 x h1) h2) h3
        (ix5 b (win hh ww) h s d)
      = x (ix4 b (⟨h.val * 32 + d.val, by omega⟩ : Fin 256) (⟨hh.val * 7 + s.val / 7, by omega⟩ : Fin 56)
          (⟨ww.val * 7 + s.val % 7, by omega⟩ : Fin 56)) := by
  -- through (b, hh, ww, h, w1, w2, d), then (b, h, d, hh, w1, ww, w2), with w1 = s / 7 and w2 = s % 7
  refine (shapeCast_apply _ h3 (ix5 b (win hh ww) h s d)
    (ix7 b hh ww h (⟨s.val / 7, by omega⟩ : Fin 7) (⟨s.val % 7, by omega⟩ : Fin 7) d) ?_).trans ?_
  · refine (rowMajor_ix7 _ _ _ _ _ _ _).trans ?_
    refine Eq.trans ?_ (rowMajor_ix5 _ _ _ _ _).symm
    dsimp only [win]
    omega
  refine (transpose_apply [0, 3, 5, 1, 4, 6, 2] _ h2 _
    (ix7 b h d hh (⟨s.val / 7, by omega⟩ : Fin 7) ww (⟨s.val % 7, by omega⟩ : Fin 7)) (fun a => match a with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl)).trans ?_
  refine shapeCast_apply x h1 _ _ ?_
  refine (rowMajor_ix4 _ _ _ _).trans ?_
  refine Eq.trans ?_ (rowMajor_ix7 _ _ _ _ _ _ _).symm
  dsimp only
  omega

/-- OUT OF WINDOWS, at (b, c, y, xx). -/
theorem fromWindows_apply {α : Type} (z : S32x64x8x49x32.Idx → α)
    (g1 : S32x64x8x49x32.ShapeCasts S32x8x8x8x7x7x32)
    (g2 : S32x8x8x8x7x7x32.Transposes [0, 3, 6, 1, 4, 2, 5] S32x8x32x8x7x8x7)
    (g3 : S32x8x32x8x7x8x7.ShapeCasts S32x256x56x56)
    (b : Fin 32) (c : Fin 256) (y xx : Fin 56) :
    shapeCast S32x256x56x56 (transpose S32x8x32x8x7x8x7 [0, 3, 6, 1, 4, 2, 5] (shapeCast S32x8x8x8x7x7x32 z g1) g2) g3
        (ix4 b c y xx)
      = z (ix5 b (win (⟨y.val / 7, by omega⟩ : Fin 8) (⟨xx.val / 7, by omega⟩ : Fin 8)) (⟨c.val / 32, by omega⟩ : Fin 8)
          (⟨y.val % 7 * 7 + xx.val % 7, by omega⟩ : Fin 49) (⟨c.val % 32, by omega⟩ : Fin 32)) := by
  -- through (b, h, d, hh, w1, ww, w2), then (b, hh, ww, h, w1, w2, d), with h = c / 32, d = c % 32, hh = y / 7, …
  refine (shapeCast_apply _ g3 (ix4 b c y xx)
    (ix7 b (⟨c.val / 32, by omega⟩ : Fin 8) (⟨c.val % 32, by omega⟩ : Fin 32) (⟨y.val / 7, by omega⟩ : Fin 8)
      (⟨y.val % 7, by omega⟩ : Fin 7) (⟨xx.val / 7, by omega⟩ : Fin 8) (⟨xx.val % 7, by omega⟩ : Fin 7)) ?_).trans ?_
  · refine (rowMajor_ix7 _ _ _ _ _ _ _).trans ?_
    refine Eq.trans ?_ (rowMajor_ix4 _ _ _ _).symm
    dsimp only
    omega
  refine (transpose_apply [0, 3, 6, 1, 4, 2, 5] _ g2 _
    (ix7 b (⟨y.val / 7, by omega⟩ : Fin 8) (⟨xx.val / 7, by omega⟩ : Fin 8) (⟨c.val / 32, by omega⟩ : Fin 8)
      (⟨y.val % 7, by omega⟩ : Fin 7) (⟨xx.val % 7, by omega⟩ : Fin 7) (⟨c.val % 32, by omega⟩ : Fin 32)) (fun a => match a with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl)).trans ?_
  refine shapeCast_apply z g1 _ _ ?_
  refine (rowMajor_ix5 _ _ _ _ _).trans ?_
  refine Eq.trans ?_ (rowMajor_ix7 _ _ _ _ _ _ _).symm
  dsimp only [win]
  omega

end Cert.WinAttn.Ref

end
-- ==== Proof.RefChain.lean ====
/-
  The reference's attention stages read at an index, from its re-grouped inputs to the value of the second
  contraction, at the extended reals.

  The reference holds its tokens as [32, 64, 8, 49, 32] = (batch b, window W, head h, token s, depth d).  For fixed
  (b, W, h) write X d s for the entry (b, W, h, s, d) of a re-grouped input.  Stage by stage the reference computes
  the specification's norm, normalized token, logit, row maximum, shifted exponential, softmax weight and output of
  these token families; its zero initial values of the two sums vanish, and the one extra maximum with −∞ changes nothing.
-/
import proofs.«151083_g88295937671568_pilotgen1_385_6_alg».proof.Proof.Gen.ReferenceIdeal.Read
import proofs.«151083_g88295937671568_pilotgen1_385_6_alg».proof.Proof.Spec

noncomputable section

namespace Cert.WinAttn.Ref

open Idealize.ShloMosaic Idealize.ShloMosaic.ValueIdx Cert.ReferenceIdeal Cert.ReferenceIdeal.Gen Cert.ReferenceIdeal.Read Cert.WinAttn

/-- The query tokens of (b, W, h): depth d of token s. -/
abbrev tq (q : Arr) (b : Fin 32) (W : Fin 64) (h : Fin 8) : Fin 32 → Fin 49 → EReal :=
  fun d s => val_main_v2 (F := Ideal) q (ix5 b W h s d)
/-- The key tokens. -/
abbrev tk (k : Arr) (b : Fin 32) (W : Fin 64) (h : Fin 8) : Fin 32 → Fin 49 → EReal :=
  fun d s => val_main_v10 (F := Ideal) k (ix5 b W h s d)
/-- The value tokens. -/
abbrev tv (v : Arr) (b : Fin 32) (W : Fin 64) (h : Fin 8) : Fin 32 → Fin 49 → EReal :=
  fun d s => val_main_v18 (F := Ideal) v (ix5 b W h s d)

/-! ## Norms and normalized tokens -/

theorem nrm_q (q : Arr) (b : Fin 32) (W : Fin 64) (h : Fin 8) (s : Fin 49) :
    val_main_v5 (F := Ideal) q (ix5 b W h s (0 : Fin 1)) = nrm (tq q b W h) s := by
  rw [val_main_v5_apply, val_main_v3_apply, val_main_call0_v2_apply, val_main_call0_v1_apply, val_main_v4_apply]
  have hi : ∀ d : Fin 32, idx_main_call0_v1 (idx_main_call0_v2 (ix5 b W h s (0 : Fin 1))) d = ix5 b W h s d := fun d =>
    funext fun a => Fin.ext (by match a with | ⟨0, _⟩ => rfl | ⟨1, _⟩ => rfl | ⟨2, _⟩ => rfl | ⟨3, _⟩ => rfl | ⟨4, _⟩ => rfl)
  simp only [hi]
  show max (Ideal.sqrt (Ideal.ofBits .f32 0x00000000#32 + ∑ d : Fin 32, tq q b W h d s * tq q b W h d s)) (Ideal.ofBits .f32 0x2B8CBCCC#32) = _
  rw [Ideal.ofBits_zero_f32, zero_add]
  rfl

theorem nrm_k (k : Arr) (b : Fin 32) (W : Fin 64) (h : Fin 8) (s : Fin 49) :
    val_main_v13 (F := Ideal) k (ix5 b W h s (0 : Fin 1)) = nrm (tk k b W h) s := by
  rw [val_main_v13_apply, val_main_v11_apply, val_main_call1_v2_apply, val_main_call1_v1_apply, val_main_v12_apply]
  have hi : ∀ d : Fin 32, idx_main_call1_v1 (idx_main_call1_v2 (ix5 b W h s (0 : Fin 1))) d = ix5 b W h s d := fun d =>
    funext fun a => Fin.ext (by match a with | ⟨0, _⟩ => rfl | ⟨1, _⟩ => rfl | ⟨2, _⟩ => rfl | ⟨3, _⟩ => rfl | ⟨4, _⟩ => rfl)
  simp only [hi]
  show max (Ideal.sqrt (Ideal.ofBits .f32 0x00000000#32 + ∑ d : Fin 32, tk k b W h d s * tk k b W h d s)) (Ideal.ofBits .f32 0x2B8CBCCC#32) = _
  rw [Ideal.ofBits_zero_f32, zero_add]
  rfl

theorem unit_q (q : Arr) (b : Fin 32) (W : Fin 64) (h : Fin 8) (s : Fin 49) (d : Fin 32) :
    val_main_v7 (F := Ideal) q (ix5 b W h s d) = unit (tq q b W h) d s := by
  rw [val_main_v7_apply, val_main_v6_apply]
  have hi : idx_main_v6 (ix5 b W h s d) = ix5 b W h s (0 : Fin 1) :=
    funext fun a => Fin.ext (by match a with | ⟨0, _⟩ => rfl | ⟨1, _⟩ => rfl | ⟨2, _⟩ => rfl | ⟨3, _⟩ => rfl | ⟨4, _⟩ => rfl)
  rw [hi, nrm_q]
  rfl

theorem unit_k (k : Arr) (b : Fin 32) (W : Fin 64) (h : Fin 8) (s : Fin 49) (d : Fin 32) :
    val_main_v15 (F := Ideal) k (ix5 b W h s d) = unit (tk k b W h) d s := by
  rw [val_main_v15_apply, val_main_v14_apply]
  have hi : idx_main_v14 (ix5 b W h s d) = ix5 b W h s (0 : Fin 1) :=
    funext fun a => Fin.ext (by match a with | ⟨0, _⟩ => rfl | ⟨1, _⟩ => rfl | ⟨2, _⟩ => rfl | ⟨3, _⟩ => rfl | ⟨4, _⟩ => rfl)
  rw [hi, nrm_k]
  rfl

/-! ## Logits -/

theorem scale_apply (ls : Scl) (b : Fin 32) (W : Fin 64) (h : Fin 8) (s t : Fin 49) :
    val_main_v24 (F := Ideal) ls (ix5 b W h s t) = scale ls h := by
  rw [val_main_v24_apply, val_main_v23_apply, val_main_v22_apply, val_main_v21_apply, val_main_v20_apply]
  have hi : idx_main_v23 (idx_main_v24 (ix5 b W h s t)) = ix3 h (0 : Fin 1) (0 : Fin 1) :=
    funext fun a => Fin.ext (by match a with | ⟨0, _⟩ => rfl | ⟨1, _⟩ => rfl | ⟨2, _⟩ => rfl)
  rw [hi]
  rfl

theorem logit_apply (q k : Arr) (ls : Scl) (b : Fin 32) (W : Fin 64) (h : Fin 8) (s t : Fin 49) :
    val_main_v25 (F := Ideal) q k ls (ix5 b W h s t) = logit (tq q b W h) (tk k b W h) (scale ls h) s t := by
  rw [val_main_v25_apply, val_main_v19_apply, scale_apply]
  have hl : ∀ d : Fin 32, lidx_main_v19 (ix5 b W h s t) d = ix5 b W h s d := fun d =>
    funext fun a => Fin.ext (by match a with | ⟨0, _⟩ => rfl | ⟨1, _⟩ => rfl | ⟨2, _⟩ => rfl | ⟨3, _⟩ => rfl | ⟨4, _⟩ => rfl)
  have hr : ∀ d : Fin 32, ridx_main_v19 (ix5 b W h s t) d = ix5 b W h t d := fun d =>
    funext fun a => Fin.ext (by match a with | ⟨0, _⟩ => rfl | ⟨1, _⟩ => rfl | ⟨2, _⟩ => rfl | ⟨3, _⟩ => rfl | ⟨4, _⟩ => rfl)
  simp only [hl, hr, unit_q, unit_k]
  rfl

/-! ## The softmax -/

theorem rowmax_apply (q k : Arr) (ls : Scl) (b : Fin 32) (W : Fin 64) (h : Fin 8) (s : Fin 49) :
    val_main_v28 (F := Ideal) q k ls (ix4 b W h s) = rowmax (logit (tq q b W h) (tk k b W h) (scale ls h)) s := by
  have hR : S32x64x8x49x49.Reduces [4] S32x64x8x49 := by decide
  rw [val_main_v28_apply, val_main_v27_apply]
  unfold val_main_v26
  rw [Host.reduce_eq_fold_single FloatOps.maximumf _ _ reducesTo_S32x64x8x49x49_S32x64x8x49_d4 hR h_S_]
  have hpt : ∀ t : Fin 49, val_main_v25 (F := Ideal) q k ls (hR.lift (ix4 b W h s) t)
      = logit (tq q b W h) (tk k b W h) (scale ls h) s t := fun t => by
    have hi : hR.lift (ix4 b W h s) t = ix5 b W h s t :=
      funext fun a => Fin.ext (by match a with | ⟨0, _⟩ => rfl | ⟨1, _⟩ => rfl | ⟨2, _⟩ => rfl | ⟨3, _⟩ => rfl | ⟨4, _⟩ => rfl)
    rw [hi, logit_apply]
  have hf : (val_main_v25 (F := Ideal) q k ls ∘ hR.lift (ix4 b W h s))
      = fun t : Fin 49 => logit (tq q b W h) (tk k b W h) (scale ls h) s t := funext hpt
  rw [hf]
  exact max_ninf_rowmax _ s

theorem wexp_apply (q k : Arr) (ls : Scl) (b : Fin 32) (W : Fin 64) (h : Fin 8) (s t : Fin 49) :
    val_main_v32 (F := Ideal) q k ls (ix5 b W h s t) = wexp (logit (tq q b W h) (tk k b W h) (scale ls h)) s t := by
  rw [val_main_v32_apply, val_main_v31_apply, val_main_v30_apply, val_main_v29_apply]
  have hi : idx_main_v29 (idx_main_v30 (ix5 b W h s t)) = ix4 b W h s :=
    funext fun a => Fin.ext (by match a with | ⟨0, _⟩ => rfl | ⟨1, _⟩ => rfl | ⟨2, _⟩ => rfl | ⟨3, _⟩ => rfl)
  rw [hi, logit_apply, rowmax_apply]
  rfl

theorem attn_apply (q k : Arr) (ls : Scl) (b : Fin 32) (W : Fin 64) (h : Fin 8) (s t : Fin 49) :
    val_main_v36 (F := Ideal) q k ls (ix5 b W h s t) = attn (logit (tq q b W h) (tk k b W h) (scale ls h)) s t := by
  rw [val_main_v36_apply, val_main_v35_apply, val_main_v34_apply, val_main_v33_apply, wexp_apply]
  have hi : ∀ t' : Fin 49, idx_main_v33 (idx_main_v34 (idx_main_v35 (ix5 b W h s t))) t' = ix5 b W h s t' := fun t' =>
    funext fun a => Fin.ext (by match a with | ⟨0, _⟩ => rfl | ⟨1, _⟩ => rfl | ⟨2, _⟩ => rfl | ⟨3, _⟩ => rfl | ⟨4, _⟩ => rfl)
  simp only [hi, wexp_apply]
  show Ideal.div _ (Ideal.ofBits .f32 0x00000000#32 + _) = _
  rw [Ideal.ofBits_zero_f32, zero_add]
  rfl

/-! ## The output -/

theorem v37_apply (q k v : Arr) (ls : Scl) (b : Fin 32) (W : Fin 64) (h : Fin 8) (s : Fin 49) (d : Fin 32) :
    val_main_v37 (F := Ideal) q k v ls (ix5 b W h s d)
      = out (fun d s => val_main_v2 (F := Ideal) q (ix5 b W h s d)) (fun d s => val_main_v10 (F := Ideal) k (ix5 b W h s d))
          (fun d s => val_main_v18 (F := Ideal) v (ix5 b W h s d)) (scale ls h) d s := by
  rw [val_main_v37_apply]
  have hl : ∀ t : Fin 49, lidx_main_v37 (ix5 b W h s d) t = ix5 b W h s t := fun t =>
    funext fun a => Fin.ext (by match a with | ⟨0, _⟩ => rfl | ⟨1, _⟩ => rfl | ⟨2, _⟩ => rfl | ⟨3, _⟩ => rfl | ⟨4, _⟩ => rfl)
  have hr : ∀ t : Fin 49, ridx_main_v37 (ix5 b W h s d) t = ix5 b W h t d := fun t =>
    funext fun a => Fin.ext (by match a with | ⟨0, _⟩ => rfl | ⟨1, _⟩ => rfl | ⟨2, _⟩ => rfl | ⟨3, _⟩ => rfl | ⟨4, _⟩ => rfl)
  simp only [hl, hr, attn_apply]
  rfl

end Cert.WinAttn.Ref

end
-- ==== Proof.RefValue.lean ====
/-
  The reference program's result is the specification.

  The three inputs enter through the same change of layout (into windows); the result leaves through the inverse
  one.  Between them the program computes, window by window, the attention output of the specification.  So the
  result at (b, c, y, xx) is the output of window (b, y / 7, c / 32, xx / 7) at depth c % 32 and token
  7 (y % 7) + xx % 7, which is the specification's `result`.
-/
import proofs.«151083_g88295937671568_pilotgen1_385_6_alg».proof.Proof.RefGather
import proofs.«151083_g88295937671568_pilotgen1_385_6_alg».proof.Proof.RefChain

noncomputable section

namespace Cert.WinAttn.Ref

open Cert.ReferenceIdeal Cert.ReferenceIdeal.Gen Cert.ReferenceIdeal.Read Idealize.ShloMosaic Idealize.ShloMosaic.ValueIdx Cert.WinAttn

/-- The first input in windows: depth d of token s of window (b, hh, h, ww). -/
theorem v2_apply (q : Arr) (b : Fin 32) (hh h ww : Fin 8) (s : Fin 49) (d : Fin 32) :
    val_main_v2 (F := Ideal) q (ix5 b (win hh ww) h s d) = tokens q b hh h ww d s := by
  unfold val_main_v2 val_main_v1 val_main_v0 tokens
  exact toWindows_apply q _ _ _ b hh h ww s d

/-- The second input in windows. -/
theorem v10_apply (k : Arr) (b : Fin 32) (hh h ww : Fin 8) (s : Fin 49) (d : Fin 32) :
    val_main_v10 (F := Ideal) k (ix5 b (win hh ww) h s d) = tokens k b hh h ww d s := by
  unfold val_main_v10 val_main_v9 val_main_v8 tokens
  exact toWindows_apply k _ _ _ b hh h ww s d

/-- The third input in windows. -/
theorem v18_apply (v : Arr) (b : Fin 32) (hh h ww : Fin 8) (s : Fin 49) (d : Fin 32) :
    val_main_v18 (F := Ideal) v (ix5 b (win hh ww) h s d) = tokens v b hh h ww d s := by
  unfold val_main_v18 val_main_v17 val_main_v16 tokens
  exact toWindows_apply v _ _ _ b hh h ww s d

/-- The result at (b, c, y, xx) is the windowed output at (b, 8 (y / 7) + xx / 7, c / 32, 7 (y % 7) + xx % 7, c % 32). -/
theorem v40_apply (q k v : Arr) (ls : Scl) (b : Fin 32) (c : Fin 256) (y xx : Fin 56) :
    val_main_v40 (F := Ideal) q k v ls (ix4 b c y xx)
      = val_main_v37 (F := Ideal) q k v ls
          (ix5 b (win (⟨y.val / 7, by omega⟩ : Fin 8) (⟨xx.val / 7, by omega⟩ : Fin 8)) (⟨c.val / 32, by omega⟩ : Fin 8)
            (⟨y.val % 7 * 7 + xx.val % 7, by omega⟩ : Fin 49) (⟨c.val % 32, by omega⟩ : Fin 32)) := by
  unfold val_main_v40 val_main_v39 val_main_v38
  exact fromWindows_apply _ _ _ _ b c y xx

/-- THE REFERENCE IS THE SPECIFICATION. -/
theorem result_eq (q k v : (⟨S32x256x56x56, .f32⟩ : BufTy).Contents (Elt Ideal))
    (ls : (⟨S8x1x1, .f32⟩ : BufTy).Contents (Elt Ideal)) :
    Cert.ReferenceIdeal.Read.val_main_v40 (F := Ideal) q k v ls = Cert.WinAttn.G q k v ls := by
  funext i
  obtain ⟨b, c, y, xx, rfl⟩ : ∃ (b : Fin 32) (c : Fin 256) (y xx : Fin 56), i = ix4 b c y xx :=
    ⟨i 0, i 1, i 2, i 3, eq_ix4 i⟩
  rw [v40_apply, v37_apply]
  simp only [v2_apply, v10_apply, v18_apply]
  rfl

end Cert.WinAttn.Ref

end
-- ==== Proof.lean ====
/-
  Windowed cosine attention: the kernel program against its reference, at the extended reals.

  Both programs split a [32, 256, 56, 56] tensor into 8 heads × 32 depths and 8 × 8 spatial windows of 7 × 7 = 49
  tokens, divide every query and key token by max(its Euclidean norm, ε), take the logits ⟨q̂ s, k̂ t⟩ · exp (min (scale_h, c)),
  the softmax over the key tokens (row maximum subtracted), and the weighted sum of the value tokens.  The kernel
  handles one strip of 7 rows of one batch element per grid point, keeps the depth axis before the token axis, and
  multiplies key by query and value by weight; the reference keeps the token axis first and multiplies the other way.
  Over the extended reals the two orders agree because multiplication commutes; no other law is used, so the
  finiteness precondition is never opened.  Proof/Spec.lean states the common function, Proof/KBlocks.lean that the
  kernel program's run ends at it, Proof/RefValue.lean that the reference's result term is it.
-/
import proofs.«151083_g88295937671568_pilotgen1_385_6_alg».proof.Defs
import proofs.«151083_g88295937671568_pilotgen1_385_6_alg».proof.Proof.Gen.Kernel
import proofs.«151083_g88295937671568_pilotgen1_385_6_alg».proof.Proof.Gen.Kernel.Skeleton
import proofs.«151083_g88295937671568_pilotgen1_385_6_alg».proof.Proof.Gen.Kernel.Launch
import proofs.«151083_g88295937671568_pilotgen1_385_6_alg».proof.Proof.Gen.Kernel.Points
import proofs.«151083_g88295937671568_pilotgen1_385_6_alg».proof.Proof.Gen.Kernel.Frame
import proofs.«151083_g88295937671568_pilotgen1_385_6_alg».proof.Proof.Gen.KernelIdeal
import proofs.«151083_g88295937671568_pilotgen1_385_6_alg».proof.Proof.Gen.KernelIdeal.Skeleton
import proofs.«151083_g88295937671568_pilotgen1_385_6_alg».proof.Proof.Gen.KernelIdeal.Launch
import proofs.«151083_g88295937671568_pilotgen1_385_6_alg».proof.Proof.Gen.KernelIdeal.Points
import proofs.«151083_g88295937671568_pilotgen1_385_6_alg».proof.Proof.Gen.KernelIdeal.Frame
import proofs.«151083_g88295937671568_pilotgen1_385_6_alg».proof.Proof.Gen.ReferenceIdeal
import proofs.«151083_g88295937671568_pilotgen1_385_6_alg».proof.Proof.Gen.Pre_finite_inputs
import proofs.«151083_g88295937671568_pilotgen1_385_6_alg».proof.Proof.Gen.ReferenceIdeal.Run
import proofs.«151083_g88295937671568_pilotgen1_385_6_alg».proof.Proof.Gen.ReferenceIdeal.Read
import proofs.«151083_g88295937671568_pilotgen1_385_6_alg».proof.Proof.KBlocks
import proofs.«151083_g88295937671568_pilotgen1_385_6_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the result buffer at the one specified function of the (agreeing) arguments. -/
theorem algebraic : Cert.algebraic_KernelIdeal_ReferenceIdeal := by
  intro m ρ m' ρ' _ hagree
  refine ⟨fun c => Cert.WinAttn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.WinAttn.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, Cert.WinAttn.Ref.result_eq, (hagree c).1, (hagree c).2.1, (hagree c).2.2.1,
    (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
